-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x6400000 : Shape := ⟨2, ![2, 6400000]⟩
abbrev S3x16 : Shape := ⟨2, ![3, 16]⟩
abbrev S16 : Shape := ⟨1, ![16]⟩
abbrev S16x8 : Shape := ⟨2, ![16, 8]⟩
abbrev S8 : Shape := ⟨1, ![8]⟩
abbrev S13x16 : Shape := ⟨2, ![13, 16]⟩
abbrev S16x16 : Shape := ⟨2, ![16, 16]⟩
abbrev S16x2 : Shape := ⟨2, ![16, 2]⟩
abbrev S2 : Shape := ⟨1, ![2]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S13x16 : S_.BroadcastsInDim S13x16 (![] : Fin 0 → Fin S13x16.rank)
  reducesTo_S13x16_S_d0_1 : S13x16.ReducesTo [0, 1] S_
  bcast_S_S16x16 : S_.BroadcastsInDim S16x16 (![] : Fin 0 → Fin S16x16.rank)
  reducesTo_S16x16_S_d0_1 : S16x16.ReducesTo [0, 1] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S16x2 .f32) (main_arg13 : FVec F S2 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x2 .f32 := Host.absf main_arg12
  let main_cst_20 : FVec F S_ .f32 := constant S_ .f32 0x7F800000#32
  let main_v55 : FVec F S16x2 .f32 := broadcastInDim S16x2 ![] bcast_S_S16x2 main_cst_20
  let main_v56 : IVec S16x2 1 := cmpf .olt main_v54 main_v55
  let main_c_21 : IVec S_ 1 := constantI S_ 1 1#1
  let main_v57 : IVec S_ 1 := (fun x v => Host.reduce IntOp.andi x v reducesTo_S16x2_S_d0_1 h_S_) main_v56 main_c_21
  let main_v58 : IVec S_ 1 := andi main_v53 main_v57
  let main_v59 : FVec F S2 .f32 := Host.absf main_arg13
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg8 : FVec F S16x8 .f32) (main_arg9 : FVec F S8 .f32) (main_arg10 : FVec F S16x16 .f32) (main_arg11 : FVec F S16 .f32) (main_arg12 : FVec F S16x2 .f32) (main_arg13 : FVec F S2 .f32) (main_v33 : IVec S_ 1) : IVec S_ 1 :=
  let main_v34 : FVec F S16x8 .f32 := Host.absf main_arg8
  let main_cst_12 : FVec F S_ .f32 := constant S_ .f32 0x7F800000#32
  let main_v35 : FVec F S16x8 .f32 := broadcastInDim S16x8 ![] bcast_S_S16x8 main_cst_12
  let main_v36 : IVec S16x8 1 := cmpf .olt main_v34 main_v35
  let main_c_13 : IVec S_ 1 := constantI S_ 1 1#1
  let main_v37 : IVec S_ 1 := (fun x v => Host.reduce IntOp.andi x v reducesTo_S16x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S16x16 .f32 := Host.absf main_arg10
  let main_cst_16 : FVec F S_ .f32 := constant S_ .f32 0x7F800000#32
  let main_v45 : FVec F S16x16 .f32 := broadcastInDim S16x16 ![] bcast_S_S16x16 main_cst_16
  let main_v46 : IVec S16x16 1 := cmpf .olt main_v44 main_v45
  let main_c_17 : IVec S_ 1 := constantI S_ 1 1#1
  let main_v47 : IVec S_ 1 := (fun x v => Host.reduce IntOp.andi x v reducesTo_S16x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg12 main_arg13 main_v48 main_v49 main_v50

def fn_part1 {F : FTy → Type} [FloatOps F] (main_arg5 : FVec F S8 .f32) (main_arg6 : FVec F S13x16 .f32) (main_arg7 : FVec F S16 .f32) (main_arg8 : FVec F S16x8 .f32) (main_arg9 : FVec F S8 .f32) (main_arg10 : FVec F S16x16 .f32) (main_arg11 : FVec F S16 .f32) (main_arg12 : FVec F S16x2 .f32) (main_arg13 : FVec F S2 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S13x16 .f32 := Host.absf main_arg6
  let main_cst_8 : FVec F S_ .f32 := constant S_ .f32 0x7F800000#32
  let main_v25 : FVec F S13x16 .f32 := broadcastInDim S13x16 ![] bcast_S_S13x16 main_cst_8
  let main_v26 : IVec S13x16 1 := cmpf .olt main_v24 main_v25
  let main_c_9 : IVec S_ 1 := constantI S_ 1 1#1
  let main_v27 : IVec S_ 1 := (fun x v => Host.reduce IntOp.andi x v reducesTo_S13x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x16 .f32) (main_arg1 : IVec S2x6400000 32) (main_arg2 : FVec F S3x16 .f32) (main_arg3 : FVec F S16 .f32) (main_arg4 : FVec F S16x8 .f32) (main_arg5 : FVec F S8 .f32) (main_arg6 : FVec F S13x16 .f32) (main_arg7 : FVec F S16 .f32) (main_arg8 : FVec F S16x8 .f32) (main_arg9 : FVec F S8 .f32) (main_arg10 : FVec F S16x16 .f32) (main_arg11 : FVec F S16 .f32) (main_arg12 : FVec F S16x2 .f32) (main_arg13 : FVec F S2 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S3x16 .f32 := Host.absf main_arg2
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg4
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg5 main_arg6 main_arg7 main_arg8 main_arg9 main_arg10 main_arg11 main_arg12 main_arg13 main_v13 main_v16
-- ==== Kernel.lean ====
abbrev S100000x16 : Shape := ⟨2, ![100000, 16]⟩
abbrev S2x6400000 : Shape := ⟨2, ![2, 6400000]⟩
abbrev S3x16 : Shape := ⟨2, ![3, 16]⟩
abbrev S16 : Shape := ⟨1, ![16]⟩
abbrev S16x8 : Shape := ⟨2, ![16, 8]⟩
abbrev S8 : Shape := ⟨1, ![8]⟩
abbrev S13x16 : Shape := ⟨2, ![13, 16]⟩
abbrev S16x16 : Shape := ⟨2, ![16, 16]⟩
abbrev S16x2 : Shape := ⟨2, ![16, 2]⟩
abbrev S2 : Shape := ⟨1, ![2]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x3 : Shape := ⟨2, ![100000, 3]⟩
abbrev S6500000x16 : Shape := ⟨2, ![6500000, 16]⟩
abbrev S1x16 : Shape := ⟨2, ![1, 16]⟩
abbrev S100000x8 : Shape := ⟨2, ![100000, 8]⟩
abbrev S6500000x8 : Shape := ⟨2, ![6500000, 8]⟩
abbrev S1x8 : Shape := ⟨2, ![1, 8]⟩
abbrev S1x2 : Shape := ⟨2, ![1, 2]⟩
abbrev S5000x16 : Shape := ⟨2, ![5000, 16]⟩
abbrev S5000x8 : Shape := ⟨2, ![5000, 8]⟩
abbrev S5000x13 : Shape := ⟨2, ![5000, 13]⟩
abbrev S5000x2 : Shape := ⟨2, ![5000, 2]⟩
abbrev S5000 : Shape := ⟨1, ![5000]⟩
abbrev S5000x1 : Shape := ⟨2, ![5000, 1]⟩

abbrev nBuf : Space → Nat
  | .hbm => 122
  | .vmem => 14
  | .smem => 0
  | _ => 0

abbrev bufTy : (tb : Table) → Fin (tcTables nBuf tb) → BufTy
  | .hbm, ⟨0, _⟩ => ⟨S100000x16, .f32⟩
  | .hbm, ⟨1, _⟩ => ⟨S2x6400000, .i32⟩
  | .hbm, ⟨2, _⟩ => ⟨S3x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S13x16, .f32⟩
  | .hbm, ⟨7, _⟩ => ⟨S16, .f32⟩
  | .hbm, ⟨8, _⟩ => ⟨S16x8, .f32⟩
  | .hbm, ⟨9, _⟩ => ⟨S8, .f32⟩
  | .hbm, ⟨10, _⟩ => ⟨S16x16, .f32⟩
  | .hbm, ⟨11, _⟩ => ⟨S16, .f32⟩
  | .hbm, ⟨12, _⟩ => ⟨S16x2, .f32⟩
  | .hbm, ⟨13, _⟩ => ⟨S2, .f32⟩
  | .hbm, ⟨14, _⟩ => ⟨S100000, .i32⟩
  | .hbm, ⟨15, _⟩ => ⟨S1x6400000, .i32⟩
  | .hbm, ⟨16, _⟩ => ⟨S6400000, .i32⟩
  | .hbm, ⟨17, _⟩ => ⟨S6500000, .i32⟩
  | .hbm, ⟨18, _⟩ => ⟨S1x6400000, .i32⟩
  | .hbm, ⟨19, _⟩ => ⟨S6400000, .i32⟩
  | .hbm, ⟨20, _⟩ => ⟨S6500000, .i32⟩
  | .hbm, ⟨21, _⟩ => ⟨S_, .f32⟩
  | .hbm, ⟨22, _⟩ => ⟨S6500000, .f32⟩
  | .hbm, ⟨23, _⟩ => ⟨S_, .f32⟩
  | .hbm, ⟨24, _⟩ => ⟨S100000, .f32⟩
  | .hbm, ⟨25, _⟩ => ⟨S6500000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x3, .f32⟩
  | .hbm, ⟨36, _⟩ => ⟨S100000x16, .f32⟩
  | .hbm, ⟨37, _⟩ => ⟨S_, .i32⟩
  | .hbm, ⟨38, _⟩ => ⟨S6500000, .i32⟩
  | .hbm, ⟨39, _⟩ => ⟨S6500000, .i1⟩
  | .hbm, ⟨40, _⟩ => ⟨S_, .i32⟩
  | .hbm, ⟨41, _⟩ => ⟨S6500000, .i32⟩
  | .hbm, ⟨42, _⟩ => ⟨S6500000, .i32⟩
  | .hbm, ⟨43, _⟩ => ⟨S6500000, .i32⟩
  | .hbm, ⟨44, _⟩ => ⟨S6500000x1, .i32⟩
  | .hbm, ⟨45, _⟩ => ⟨S6500000, .f32⟩
  | .hbm, ⟨46, _⟩ => ⟨S_, .i32⟩
  | .hbm, ⟨47, _⟩ => ⟨S6500000, .i32⟩
  | .hbm, ⟨48, _⟩ => ⟨S6500000, .i1⟩
  | .hbm, ⟨49, _⟩ => ⟨S_, .i32⟩
  | .hbm, ⟨50, _⟩ => ⟨S6500000, .i32⟩
  | .hbm, ⟨51, _⟩ => ⟨S6500000, .i32⟩
  | .hbm, ⟨52, _⟩ => ⟨S6500000, .i32⟩
  | .hbm, ⟨53, _⟩ => ⟨S6500000x1, .i32⟩
  | .hbm, ⟨54, _⟩ => ⟨S6500000, .f32⟩
  | .hbm, ⟨55, _⟩ => ⟨S6500000, .f32⟩
  | .hbm, ⟨56, _⟩ => ⟨S6500000x1, .f32⟩
  | .hbm, ⟨57, _⟩ => ⟨S_, .i32⟩
  | .hbm, ⟨58, _⟩ => ⟨S6500000, .i32⟩
  | .hbm, ⟨59, _⟩ => ⟨S6500000, .i1⟩
  | .hbm, ⟨60, _⟩ => ⟨S_, .i32⟩
  | .hbm, ⟨61, _⟩ => ⟨S6500000, .i32⟩
  | .hbm, ⟨62, _⟩ => ⟨S6500000, .i32⟩
  | .hbm, ⟨63, _⟩ => ⟨S6500000, .i32⟩
  | .hbm, ⟨64, _⟩ => ⟨S6500000x1, .i32⟩
  | .hbm, ⟨65, _⟩ => ⟨S6500000x16, .f32⟩
  | .hbm, ⟨66, _⟩ => ⟨S6500000x16, .f32⟩
  | .hbm, ⟨67, _⟩ => ⟨S6500000x16, .f32⟩
  | .hbm, ⟨68, _⟩ => ⟨S_, .f32⟩
  | .hbm, ⟨69, _⟩ => ⟨S100000x16, .f32⟩
  | .hbm, ⟨70, _⟩ => ⟨S6500000x1, .i32⟩
  | .hbm, ⟨71, _⟩ => ⟨S100000x16, .f32⟩
  | .hbm, ⟨72, _⟩ => ⟨S1x16, .f32⟩
  | .hbm, ⟨73, _⟩ => ⟨S100000x16, .f32⟩
  | .hbm, ⟨74, _⟩ => ⟨S100000x16, .f32⟩
  | .hbm, ⟨75, _⟩ => ⟨S_, .f32⟩
  | .hbm, ⟨76, _⟩ => ⟨S100000x16, .f32⟩
  | .hbm, ⟨77, _⟩ => ⟨S100000x16, .f32⟩
  | .hbm, ⟨78, _⟩ => ⟨S100000x8, .f32⟩
  | .hbm, ⟨79, _⟩ => ⟨S_, .i32⟩
  | .hbm, ⟨80, _⟩ => ⟨S6500000, .i32⟩
  | .hbm, ⟨81, _⟩ => ⟨S6500000, .i1⟩
  | .hbm, ⟨82, _⟩ => ⟨S_, .i32⟩
  | .hbm, ⟨83, _⟩ => ⟨S6500000, .i32⟩
  | .hbm, ⟨84, _⟩ => ⟨S6500000, .i32⟩
  | .hbm, ⟨85, _⟩ => ⟨S6500000, .i32⟩
  | .hbm, ⟨86, _⟩ => ⟨S6500000x1, .i32⟩
  | .hbm, ⟨87, _⟩ => ⟨S6500000, .f32⟩
  | .hbm, ⟨88, _⟩ => ⟨S_, .i32⟩
  | .hbm, ⟨89, _⟩ => ⟨S6500000, .i32⟩
  | .hbm, ⟨90, _⟩ => ⟨S6500000, .i1⟩
  | .hbm, ⟨91, _⟩ => ⟨S_, .i32⟩
  | .hbm, ⟨92, _⟩ => ⟨S6500000, .i32⟩
  | .hbm, ⟨93, _⟩ => ⟨S6500000, .i32⟩
  | .hbm, ⟨94, _⟩ => ⟨S6500000, .i32⟩
  | .hbm, ⟨95, _⟩ => ⟨S6500000x1, .i32⟩
  | .hbm, ⟨96, _⟩ => ⟨S6500000, .f32⟩
  | .hbm, ⟨97, _⟩ => ⟨S6500000, .f32⟩
  | .hbm, ⟨98, _⟩ => ⟨S6500000x1, .f32⟩
  | .hbm, ⟨99, _⟩ => ⟨S_, .i32⟩
  | .hbm, ⟨100, _⟩ => ⟨S6500000, .i32⟩
  | .hbm, ⟨101, _⟩ => ⟨S6500000, .i1⟩
  | .hbm, ⟨102, _⟩ => ⟨S_, .i32⟩
  | .hbm, ⟨103, _⟩ => ⟨S6500000, .i32⟩
  | .hbm, ⟨104, _⟩ => ⟨S6500000, .i32⟩
  | .hbm, ⟨105, _⟩ => ⟨S6500000, .i32⟩
  | .hbm, ⟨106, _⟩ => ⟨S6500000x1, .i32⟩
  | .hbm, ⟨107, _⟩ => ⟨S6500000x8, .f32⟩
  | .hbm, ⟨108, _⟩ => ⟨S6500000x8, .f32⟩
  | .hbm, ⟨109, _⟩ => ⟨S6500000x8, .f32⟩
  | .hbm, ⟨110, _⟩ => ⟨S_, .f32⟩
  | .hbm, ⟨111, _⟩ => ⟨S100000x8, .f32⟩
  | .hbm, ⟨112, _⟩ => ⟨S6500000x1, .i32⟩
  | .hbm, ⟨113, _⟩ => ⟨S100000x8, .f32⟩
  | .hbm, ⟨114, _⟩ => ⟨S1x8, .f32⟩
  | .hbm, ⟨115, _⟩ => ⟨S100000x8, .f32⟩
  | .hbm, ⟨116, _⟩ => ⟨S100000x8, .f32⟩
  | .hbm, ⟨117, _⟩ => ⟨S1x16, .f32⟩
  | .hbm, ⟨118, _⟩ => ⟨S1x8, .f32⟩
  | .hbm, ⟨119, _⟩ => ⟨S1x16, .f32⟩
  | .hbm, ⟨120, _⟩ => ⟨S1x2, .f32⟩
  | .hbm, ⟨121, _⟩ => ⟨S100000x8, .f32⟩
  | .local _ .vmem, ⟨0, _⟩ => ⟨S5000x16, .f32⟩
  | .local _ .vmem, ⟨1, _⟩ => ⟨S5000x16, .f32⟩
  | .local _ .vmem, ⟨2, _⟩ => ⟨S5000x8, .f32⟩
  | .local _ .vmem, ⟨3, _⟩ => ⟨S5000x8, .f32⟩
  | .local _ .vmem, ⟨4, _⟩ => ⟨S13x16, .f32⟩
  | .local _ .vmem, ⟨5, _⟩ => ⟨S1x16, .f32⟩
  | .local _ .vmem, ⟨6, _⟩ => ⟨S16x8, .f32⟩
  | .local _ .vmem, ⟨7, _⟩ => ⟨S1x8, .f32⟩
  | .local _ .vmem, ⟨8, _⟩ => ⟨S16x16, .f32⟩
  | .local _ .vmem, ⟨9, _⟩ => ⟨S1x16, .f32⟩
  | .local _ .vmem, ⟨10, _⟩ => ⟨S16x2, .f32⟩
  | .local _ .vmem, ⟨11, _⟩ => ⟨S1x2, .f32⟩
  | .local _ .vmem, ⟨12, _⟩ => ⟨S5000x8, .f32⟩
  | .local _ .vmem, ⟨13, _⟩ => ⟨S5000x8, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_cst : Ref sig .tc := ⟨.hbm, 75, rfl⟩
abbrev main_call1_v0 : Ref sig .tc := ⟨.hbm, 76, rfl⟩
abbrev main_v48 : Ref sig .tc := ⟨.hbm, 77, rfl⟩
abbrev main_v49 : Ref sig .tc := ⟨.hbm, 78, rfl⟩
abbrev main_c_9 : Ref sig .tc := ⟨.hbm, 79, rfl⟩
abbrev main_v50 : Ref sig .tc := ⟨.hbm, 80, rfl⟩
abbrev main_v51 : Ref sig .tc := ⟨.hbm, 81, rfl⟩
abbrev main_c_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_11 : Ref sig .tc := ⟨.hbm, 88, rfl⟩
abbrev main_v57 : Ref sig .tc := ⟨.hbm, 89, rfl⟩
abbrev main_v58 : Ref sig .tc := ⟨.hbm, 90, rfl⟩
abbrev main_c_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_13 : Ref sig .tc := ⟨.hbm, 99, rfl⟩
abbrev main_v66 : Ref sig .tc := ⟨.hbm, 100, rfl⟩
abbrev main_v67 : Ref sig .tc := ⟨.hbm, 101, rfl⟩
abbrev main_c_14 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S13x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  slices_S100000x16_S100000x3_0_0 : S100000x16.Slices ![0, 0] S100000x3
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S6500000x1_S6500000x8_0_1 : S6500000x1.BroadcastsInDim S6500000x8 (![0, 1] : Fin 2 → Fin S6500000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  shapeCasts_S16_S1x16 : S16.ShapeCasts S1x16
  shapeCasts_S8_S1x8 : S8.ShapeCasts S1x8
  shapeCasts_S2_S1x2 : S2.ShapeCasts S1x2
  inb_S5000x16_S5000x16_0_0 : ∀ a, (![0, 0] : Fin 2 → Nat) a + S5000x16.size a ≤ S5000x16.size a
  h_S5000x16 : 0 < S5000x16.numel
  slices_S5000x16_o0_3_S5000x13 : S5000x16.Slices ![0, 3] S5000x13
  inb_S13x16_S13x16_0_0 : ∀ a, (![0, 0] : Fin 2 → Nat) a + S13x16.size a ≤ S13x16.size a
  h_S13x16 : 0 < S13x16.numel
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S16x16_S16x16_0_0 : ∀ a, (![0, 0] : Fin 2 → Nat) a + S16x16.size a ≤ S16x16.size a
  h_S16x16 : 0 < S16x16.numel
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  slices_S5000x2_o0_0_S5000x1 : S5000x2.Slices ![0, 0] S5000x1
  broadcasts_S5000x1_S5000x8 : S5000x1.Broadcasts S5000x8
  slices_S5000x2_o0_1_S5000x1 : S5000x2.Slices ![0, 1] S5000x1
  scatter_S100000_S6500000x1_S6500000_n_0_0_1_wf : ScatterDims.WF S100000 S6500000x1 S6500000 [] [0] [0] 1
  dot_S100000x3_S3x16_S100000x16_1_0_0_1_n_n_wf : DotDims.WF S100000x3 S3x16 S100000x16 [1] [0] [0] [1] [] []
  gather_S100000_S6500000x1_S6500000_n_0_n_n_0_1_1_wf : GatherDims.WF S100000 S6500000x1 S6500000 [] [0] [] [0] [] 1 ![1]
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S100000x16_S16x8_S100000x8_1_0_0_1_n_n_wf : DotDims.WF S100000x16 S16x8 S100000x8 [1] [0] [0] [1] [] []
  gather_S100000x8_S6500000x1_S6500000x8_1_0_n_n_0_1_18_wf : GatherDims.WF S100000x8 S6500000x1 S6500000x8 [1] [0] [] [0] [] 1 ![1, 8]
  scatter_S100000x8_S6500000x1_S6500000x8_1_0_0_1_wf : ScatterDims.WF S100000x8 S6500000x1 S6500000x8 [1] [0] [0] 1
  dot_S5000x13_S13x16_S5000x16_1_0_0_1_n_n_wf : DotDims.WF S5000x13 S13x16 S5000x16 [1] [0] [0] [1] [] []
  dot_S5000x16_S16x8_S5000x8_1_0_0_1_n_n_wf : DotDims.WF S5000x16 S16x8 S5000x8 [1] [0] [0] [1] [] []
  dot_S5000x16_S16x16_S5000x16_1_0_0_1_n_n_wf : DotDims.WF S5000x16 S16x16 S5000x16 [1] [0] [0] [1] [] []
  dot_S5000x16_S16x2_S5000x2_1_0_0_1_n_n_wf : DotDims.WF S5000x16 S16x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x8.size a ≤ S100000x8.size a
  hwx0_1 : ∀ i : grid0.Coords, EltTy.bits .f32 = 32 ∨ (Rect.block (s := S100000x8) S5000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S13x16.size a ≤ S13x16.size a
  hwx0_2 : ∀ i : grid0.Coords, EltTy.bits .f32 = 32 ∨ (Rect.block (s := S13x16) S13x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x8.size a ≤ S16x8.size a
  hwx0_4 : ∀ i : grid0.Coords, EltTy.bits .f32 = 32 ∨ (Rect.block (s := S16x8) S16x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8.size a ≤ S1x8.size a
  hwx0_5 : ∀ i : grid0.Coords, EltTy.bits .f32 = 32 ∨ (Rect.block (s := S1x8) S1x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x16.size a ≤ S16x16.size a
  hwx0_6 : ∀ i : grid0.Coords, EltTy.bits .f32 = 32 ∨ (Rect.block (s := S16x16) S16x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x2.size a ≤ S16x2.size a
  hwx0_8 : ∀ i : grid0.Coords, EltTy.bits .f32 = 32 ∨ (Rect.block (s := S16x2) S16x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2.size a ≤ S1x2.size a
  hwx0_9 : ∀ i : grid0.Coords, EltTy.bits .f32 = 32 ∨ (Rect.block (s := S1x2) S1x2.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x8.size a ≤ S100000x8.size a
  hwx0_10 : ∀ i : grid0.Coords, EltTy.bits .f32 = 32 ∨ (Rect.block (s := S100000x8) S5000x8.size (cc0_transform_10 i) (hinb0_10 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def dot_S100000x3_S3x16_S100000x16_1_0_0_1_n_n : DotDims S100000x3 S3x16 S100000x16 where
  lhsContracting := [1]
  rhsContracting := [0]
  lhsNonContracting := [0]
  rhsNonContracting := [1]
  lhsBatch := []
  rhsBatch := []
  wf := dot_S100000x3_S3x16_S100000x16_1_0_0_1_n_n_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S6500000x1_S6500000x8_1_0_n_n_0_1_18 : GatherDims S100000x8 S6500000x1 S6500000x8 where
  offsetDims := [1]
  collapsedSliceDims := [0]
  operandBatchingDims := []
  startIndicesBatchingDims := []
  startIndexMap := [0]
  indexVectorDim := 1
  sliceSizes := ![1, 8]
  wf := gather_S100000x8_S6500000x1_S6500000x8_1_0_n_n_0_1_18_wf
def scatter_S100000x8_S6500000x1_S6500000x8_1_0_0_1 : ScatterDims S100000x8 S6500000x1 S6500000x8 where
  updateWindowDims := [1]
  insertedWindowDims := [0]
  scatterDimsToOperandDims := [0]
  indexVectorDim := 1
  wf := scatter_S100000x8_S6500000x1_S6500000x8_1_0_0_1_wf
def dot_S5000x13_S13x16_S5000x16_1_0_0_1_n_n : DotDims S5000x13 S13x16 S5000x16 where
  lhsContracting := [1]
  rhsContracting := [0]
  lhsNonContracting := [0]
  rhsNonContracting := [1]
  lhsBatch := []
  rhsBatch := []
  wf := dot_S5000x13_S13x16_S5000x16_1_0_0_1_n_n_wf
def dot_S5000x16_S16x8_S5000x8_1_0_0_1_n_n : DotDims S5000x16 S16x8 S5000x8 where
  lhsContracting := [1]
  rhsContracting := [0]
  lhsNonContracting := [0]
  rhsNonContracting := [1]
  lhsBatch := []
  rhsBatch := []
  wf := dot_S5000x16_S16x8_S5000x8_1_0_0_1_n_n_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v80) S5000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S13x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v81) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S16x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v82) S1x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S16x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v83) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S16x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v84) S1x2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v85) S5000x8.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x16 : Shape := ⟨2, ![100000, 16]⟩
abbrev S2x6400000 : Shape := ⟨2, ![2, 6400000]⟩
abbrev S3x16 : Shape := ⟨2, ![3, 16]⟩
abbrev S16 : Shape := ⟨1, ![16]⟩
abbrev S16x8 : Shape := ⟨2, ![16, 8]⟩
abbrev S8 : Shape := ⟨1, ![8]⟩
abbrev S13x16 : Shape := ⟨2, ![13, 16]⟩
abbrev S16x16 : Shape := ⟨2, ![16, 16]⟩
abbrev S16x2 : Shape := ⟨2, ![16, 2]⟩
abbrev S2 : Shape := ⟨1, ![2]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x3 : Shape := ⟨2, ![100000, 3]⟩
abbrev S6500000x16 : Shape := ⟨2, ![6500000, 16]⟩
abbrev S1x16 : Shape := ⟨2, ![1, 16]⟩
abbrev S100000x8 : Shape := ⟨2, ![100000, 8]⟩
abbrev S6500000x8 : Shape := ⟨2, ![6500000, 8]⟩
abbrev S1x8 : Shape := ⟨2, ![1, 8]⟩
abbrev S100000x13 : Shape := ⟨2, ![100000, 13]⟩
abbrev S100000x2 : Shape := ⟨2, ![100000, 2]⟩
abbrev S1x2 : Shape := ⟨2, ![1, 2]⟩
abbrev S100000x1 : Shape := ⟨2, ![100000, 1]⟩

abbrev nBuf : Space → Nat
  | .hbm => 161
  | .vmem => 0
  | .smem => 0
  | _ => 0

abbrev hbmTy0_0 (i : Nat) : BufTy := match i % 128 with
  | 0 => ⟨S100000x16, .f32⟩
  | 1 => ⟨S2x6400000, .i32⟩
  | 2 => ⟨S3x16, .f32⟩
  | 3 => ⟨S16, .f32⟩
  | 4 => ⟨S16x8, .f32⟩
  | 5 => ⟨S8, .f32⟩
  | 6 => ⟨S13x16, .f32⟩
  | 7 => ⟨S16, .f32⟩
  | 8 => ⟨S16x8, .f32⟩
  | 9 => ⟨S8, .f32⟩
  | 10 => ⟨S16x16, .f32⟩
  | 11 => ⟨S16, .f32⟩
  | 12 => ⟨S16x2, .f32⟩
  | 13 => ⟨S2, .f32⟩
  | 14 => ⟨S100000, .i32⟩
  | 15 => ⟨S1x6400000, .i32⟩
  | 16 => ⟨S6400000, .i32⟩
  | 17 => ⟨S6500000, .i32⟩
  | 18 => ⟨S1x6400000, .i32⟩
  | 19 => ⟨S6400000, .i32⟩
  | 20 => ⟨S6500000, .i32⟩
  | 21 => ⟨S_, .f32⟩
  | 22 => ⟨S6500000, .f32⟩
  | 23 => ⟨S_, .f32⟩
  | 24 => ⟨S100000, .f32⟩
  | 25 => ⟨S6500000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S100000x3, .f32⟩
  | 36 => ⟨S100000x16, .f32⟩
  | 37 => ⟨S_, .i32⟩
  | 38 => ⟨S6500000, .i32⟩
  | 39 => ⟨S6500000, .i1⟩
  | 40 => ⟨S_, .i32⟩
  | 41 => ⟨S6500000, .i32⟩
  | 42 => ⟨S6500000, .i32⟩
  | 43 => ⟨S6500000, .i32⟩
  | 44 => ⟨S6500000x1, .i32⟩
  | 45 => ⟨S6500000, .f32⟩
  | 46 => ⟨S_, .i32⟩
  | 47 => ⟨S6500000, .i32⟩
  | 48 => ⟨S6500000, .i1⟩
  | 49 => ⟨S_, .i32⟩
  | 50 => ⟨S6500000, .i32⟩
  | 51 => ⟨S6500000, .i32⟩
  | 52 => ⟨S6500000, .i32⟩
  | 53 => ⟨S6500000x1, .i32⟩
  | 54 => ⟨S6500000, .f32⟩
  | 55 => ⟨S6500000, .f32⟩
  | 56 => ⟨S6500000x1, .f32⟩
  | 57 => ⟨S_, .i32⟩
  | 58 => ⟨S6500000, .i32⟩
  | 59 => ⟨S6500000, .i1⟩
  | 60 => ⟨S_, .i32⟩
  | 61 => ⟨S6500000, .i32⟩
  | 62 => ⟨S6500000, .i32⟩
  | 63 => ⟨S6500000, .i32⟩
  | 64 => ⟨S6500000x1, .i32⟩
  | 65 => ⟨S6500000x16, .f32⟩
  | 66 => ⟨S6500000x16, .f32⟩
  | 67 => ⟨S6500000x16, .f32⟩
  | 68 => ⟨S_, .f32⟩
  | 69 => ⟨S100000x16, .f32⟩
  | 70 => ⟨S6500000x1, .i32⟩
  | 71 => ⟨S100000x16, .f32⟩
  | 72 => ⟨S1x16, .f32⟩
  | 73 => ⟨S100000x16, .f32⟩
  | 74 => ⟨S100000x16, .f32⟩
  | 75 => ⟨S_, .f32⟩
  | 76 => ⟨S100000x16, .f32⟩
  | 77 => ⟨S100000x16, .f32⟩
  | 78 => ⟨S100000x8, .f32⟩
  | 79 => ⟨S_, .i32⟩
  | 80 => ⟨S6500000, .i32⟩
  | 81 => ⟨S6500000, .i1⟩
  | 82 => ⟨S_, .i32⟩
  | 83 => ⟨S6500000, .i32⟩
  | 84 => ⟨S6500000, .i32⟩
  | 85 => ⟨S6500000, .i32⟩
  | 86 => ⟨S6500000x1, .i32⟩
  | 87 => ⟨S6500000, .f32⟩
  | 88 => ⟨S_, .i32⟩
  | 89 => ⟨S6500000, .i32⟩
  | 90 => ⟨S6500000, .i1⟩
  | 91 => ⟨S_, .i32⟩
  | 92 => ⟨S6500000, .i32⟩
  | 93 => ⟨S6500000, .i32⟩
  | 94 => ⟨S6500000, .i32⟩
  | 95 => ⟨S6500000x1, .i32⟩
  | 96 => ⟨S6500000, .f32⟩
  | 97 => ⟨S6500000, .f32⟩
  | 98 => ⟨S6500000x1, .f32⟩
  | 99 => ⟨S_, .i32⟩
  | 100 => ⟨S6500000, .i32⟩
  | 101 => ⟨S6500000, .i1⟩
  | 102 => ⟨S_, .i32⟩
  | 103 => ⟨S6500000, .i32⟩
  | 104 => ⟨S6500000, .i32⟩
  | 105 => ⟨S6500000, .i32⟩
  | 106 => ⟨S6500000x1, .i32⟩
  | 107 => ⟨S6500000x8, .f32⟩
  | 108 => ⟨S6500000x8, .f32⟩
  | 109 => ⟨S6500000x8, .f32⟩
  | 110 => ⟨S_, .f32⟩
  | 111 => ⟨S100000x8, .f32⟩
  | 112 => ⟨S6500000x1, .i32⟩
  | 113 => ⟨S100000x8, .f32⟩
  | 114 => ⟨S1x8, .f32⟩
  | 115 => ⟨S100000x8, .f32⟩
  | 116 => ⟨S100000x8, .f32⟩
  | 117 => ⟨S100000x13, .f32⟩
  | 118 => ⟨S100000x16, .f32⟩
  | 119 => ⟨S1x16, .f32⟩
  | 120 => ⟨S100000x16, .f32⟩
  | 121 => ⟨S100000x16, .f32⟩
  | 122 => ⟨S_, .f32⟩
  | 123 => ⟨S100000x16, .f32⟩
  | 124 => ⟨S100000x16, .f32⟩
  | 125 => ⟨S100000x8, .f32⟩
  | 126 => ⟨S1x8, .f32⟩
  | 127 => ⟨S100000x8, .f32⟩
  | _ => ⟨S100000x16, .f32⟩

abbrev hbmTy0_1 (i : Nat) : BufTy := match i % 128 with
  | 0 => ⟨S100000x8, .f32⟩
  | 1 => ⟨S100000x16, .f32⟩
  | 2 => ⟨S1x16, .f32⟩
  | 3 => ⟨S100000x16, .f32⟩
  | 4 => ⟨S100000x16, .f32⟩
  | 5 => ⟨S_, .f32⟩
  | 6 => ⟨S100000x16, .f32⟩
  | 7 => ⟨S100000x16, .f32⟩
  | 8 => ⟨S100000x2, .f32⟩
  | 9 => ⟨S1x2, .f32⟩
  | 10 => ⟨S100000x2, .f32⟩
  | 11 => ⟨S100000x2, .f32⟩
  | 12 => ⟨S_, .f32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x2, .f32⟩
  | 19 => ⟨S100000x2, .f32⟩
  | 20 => ⟨S100000x2, .f32⟩
  | 21 => ⟨S_, .f32⟩
  | 22 => ⟨S100000, .f32⟩
  | 23 => ⟨S100000x1, .f32⟩
  | 24 => ⟨S100000x2, .f32⟩
  | 25 => ⟨S100000x2, .f32⟩
  | 26 => ⟨S100000x1, .f32⟩
  | 27 => ⟨S100000x8, .f32⟩
  | 28 => ⟨S100000x8, .f32⟩
  | 29 => ⟨S100000x1, .f32⟩
  | 30 => ⟨S100000x8, .f32⟩
  | 31 => ⟨S100000x8, .f32⟩
  | 32 => ⟨S100000x8, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_cst : Ref sig .tc := ⟨.hbm, 75, rfl⟩
abbrev main_call1_v0 : Ref sig .tc := ⟨.hbm, 76, rfl⟩
abbrev main_v48 : Ref sig .tc := ⟨.hbm, 77, rfl⟩
abbrev main_v49 : Ref sig .tc := ⟨.hbm, 78, rfl⟩
abbrev main_c_9 : Ref sig .tc := ⟨.hbm, 79, rfl⟩
abbrev main_v50 : Ref sig .tc := ⟨.hbm, 80, rfl⟩
abbrev main_v51 : Ref sig .tc := ⟨.hbm, 81, rfl⟩
abbrev main_c_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_11 : Ref sig .tc := ⟨.hbm, 88, rfl⟩
abbrev main_v57 : Ref sig .tc := ⟨.hbm, 89, rfl⟩
abbrev main_v58 : Ref sig .tc := ⟨.hbm, 90, rfl⟩
abbrev main_c_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_13 : Ref sig .tc := ⟨.hbm, 99, rfl⟩
abbrev main_v66 : Ref sig .tc := ⟨.hbm, 100, rfl⟩
abbrev main_v67 : Ref sig .tc := ⟨.hbm, 101, rfl⟩
abbrev main_c_14 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_call2_cst : Ref sig .tc := ⟨.hbm, 122, rfl⟩
abbrev main_call2_v0 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call3_cst : Ref sig .tc := ⟨.hbm, 133, rfl⟩
abbrev main_call3_v0 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_16 : Ref sig .tc := ⟨.hbm, 140, rfl⟩
abbrev main_v100 : Ref sig .tc := ⟨.hbm, 141, rfl⟩
abbrev main_cst_17 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_18 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  slices_S100000x16_S100000x3_0_0 : S100000x16.Slices ![0, 0] S100000x3
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S6500000x1_S6500000x8_0_1 : S6500000x1.BroadcastsInDim S6500000x8 (![0, 1] : Fin 2 → Fin S6500000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  slices_S100000x16_S100000x13_0_3 : S100000x16.Slices ![0, 3] S100000x13
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  slices_S100000x2_S100000x1_0_0 : S100000x2.Slices ![0, 0] S100000x1
  bcast_S100000x1_S100000x8_0_1 : S100000x1.BroadcastsInDim S100000x8 (![0, 1] : Fin 2 → Fin S100000x8.rank)
  slices_S100000x2_S100000x1_0_1 : S100000x2.Slices ![0, 1] S100000x1
  scatter_S100000_S6500000x1_S6500000_n_0_0_1_wf : ScatterDims.WF S100000 S6500000x1 S6500000 [] [0] [0] 1
  dot_S100000x3_S3x16_S100000x16_1_0_0_1_n_n_wf : DotDims.WF S100000x3 S3x16 S100000x16 [1] [0] [0] [1] [] []
  gather_S100000_S6500000x1_S6500000_n_0_n_n_0_1_1_wf : GatherDims.WF S100000 S6500000x1 S6500000 [] [0] [] [0] [] 1 ![1]
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S100000x16_S16x8_S100000x8_1_0_0_1_n_n_wf : DotDims.WF S100000x16 S16x8 S100000x8 [1] [0] [0] [1] [] []
  gather_S100000x8_S6500000x1_S6500000x8_1_0_n_n_0_1_18_wf : GatherDims.WF S100000x8 S6500000x1 S6500000x8 [1] [0] [] [0] [] 1 ![1, 8]
  scatter_S100000x8_S6500000x1_S6500000x8_1_0_0_1_wf : ScatterDims.WF S100000x8 S6500000x1 S6500000x8 [1] [0] [0] 1
  dot_S100000x13_S13x16_S100000x16_1_0_0_1_n_n_wf : DotDims.WF S100000x13 S13x16 S100000x16 [1] [0] [0] [1] [] []
  dot_S100000x16_S16x16_S100000x16_1_0_0_1_n_n_wf : DotDims.WF S100000x16 S16x16 S100000x16 [1] [0] [0] [1] [] []
  dot_S100000x16_S16x2_S100000x2_1_0_0_1_n_n_wf : DotDims.WF S100000x16 S16x2 S100000x2 [1] [0] [0] [1] [] []

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def dot_S100000x3_S3x16_S100000x16_1_0_0_1_n_n : DotDims S100000x3 S3x16 S100000x16 where
  lhsContracting := [1]
  rhsContracting := [0]
  lhsNonContracting := [0]
  rhsNonContracting := [1]
  lhsBatch := []
  rhsBatch := []
  wf := dot_S100000x3_S3x16_S100000x16_1_0_0_1_n_n_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S6500000x1_S6500000x8_1_0_n_n_0_1_18 : GatherDims S100000x8 S6500000x1 S6500000x8 where
  offsetDims := [1]
  collapsedSliceDims := [0]
  operandBatchingDims := []
  startIndicesBatchingDims := []
  startIndexMap := [0]
  indexVectorDim := 1
  sliceSizes := ![1, 8]
  wf := gather_S100000x8_S6500000x1_S6500000x8_1_0_n_n_0_1_18_wf
def scatter_S100000x8_S6500000x1_S6500000x8_1_0_0_1 : ScatterDims S100000x8 S6500000x1 S6500000x8 where
  updateWindowDims := [1]
  insertedWindowDims := [0]
  scatterDimsToOperandDims := [0]
  indexVectorDim := 1
  wf := scatter_S100000x8_S6500000x1_S6500000x8_1_0_0_1_wf
def dot_S100000x13_S13x16_S100000x16_1_0_0_1_n_n : DotDims S100000x13 S13x16 S100000x16 where
  lhsContracting := [1]
  rhsContracting := [0]
  lhsNonContracting := [0]
  rhsNonContracting := [1]
  lhsBatch := []
  rhsBatch := []
  wf := dot_S100000x13_S13x16_S100000x16_1_0_0_1_n_n_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf

class Facts : Prop extends Facts₀ where

variable [Facts]
-- ==== Proof.MoeRow.lean ====
/-
  One node of the gated two-expert mixture, on the extended reals.

  A node carries 16 features `x` and the 8 values `g` the graph expert gives it.  The context expert is a
  two-layer perceptron on the last 13 features, the gate a two-layer perceptron on all 16 followed by a softmax
  over its two logits, and the node's output is the gate-weighted sum of the two experts:

      c  = relu (x[3:] · cW1 + cb1) · cW2 + cb2          (8 values)
      l  = relu (x · mW1 + mb1) · mW2 + mb2               (2 logits)
      p  = softmax l,   p j = exp (l j - max l) / Σ_k exp (l k - max l)
      out q = p 0 · g q + p 1 · c q.

  The maximum is a fold of `max` from `-∞`, the sums are finite sums in the commutative monoid of the extended
  reals, so neither depends on the order in which a program takes them.
-/
import Idealize.ShloMosaic.PureOps.Ideal
import Idealize.ShloMosaic.PureOps.Ideal.Laws

noncomputable section

namespace Cert.MoeRow

open Idealize.ShloMosaic

/-- The value of the all-zero f32 word: the floor of a relu. -/
abbrev zero32 : EReal := Ideal.ofBits .f32 0x00000000#32
/-- The value of the f32 word of `-∞`: where a running maximum starts. -/
abbrev ninf32 : EReal := Ideal.ofBits .f32 0xFF800000#32

theorem zero32_eq : zero32 = 0 := Ideal.ofBits_zero_f32

/-- The word of `-∞` denotes the bottom of the extended reals. -/
theorem ninf32_eq_bot : ninf32 = ⊥ := by simp [ninf32, Ideal.ofBits, Ideal.ieee]

/-- Taking the maximum with `-∞` changes nothing, at any extended real. -/
theorem max_ninf32_left (a : EReal) : max ninf32 a = a := by rw [ninf32_eq_bot]; exact max_bot_left a

/-- A row vector times a matrix, at output unit `n`. -/
def lin {K N : ℕ} (v : Fin K → EReal) (W : Fin K → Fin N → EReal) (n : Fin N) : EReal :=
  ∑ k : Fin K, v k * W k n

/-- A hidden layer: affine map, then relu. -/
def hid {K H : ℕ} (v : Fin K → EReal) (W : Fin K → Fin H → EReal) (b : Fin H → EReal) (h : Fin H) : EReal :=
  max (lin v W h + b h) zero32

/-- A two-layer perceptron with a relu between the layers. -/
def mlp {K H N : ℕ} (v : Fin K → EReal) (W1 : Fin K → Fin H → EReal) (b1 : Fin H → EReal)
    (W2 : Fin H → Fin N → EReal) (b2 : Fin N → EReal) (n : Fin N) : EReal :=
  lin (hid v W1 b1) W2 n + b2 n

/-- The last 13 of a node's 16 features. -/
def tail13 (x : Fin 16 → EReal) (c : Fin 13) : EReal := x ⟨3 + c.val, by have := c.isLt; omega⟩

/-- The larger of the two logits, as a fold of `max` from `-∞`. -/
def rowMax (l : Fin 2 → EReal) : EReal := (Finset.univ : Finset (Fin 2)).fold max ninf32 l

/-- A logit's exponential after the shift by the row's maximum. -/
def expShift (l : Fin 2 → EReal) (j : Fin 2) : EReal := Ideal.exp (l j - rowMax l)

/-- The softmax of two logits. -/
def gate (l : Fin 2 → EReal) (j : Fin 2) : EReal := Ideal.div (expShift l j) (∑ k : Fin 2, expShift l k)

/-- The node's output at column `q`: the gate-weighted sum of the graph expert's value and the context expert's. -/
def outRow (x : Fin 16 → EReal) (g : Fin 8 → EReal)
    (cW1 : Fin 13 → Fin 16 → EReal) (cb1 : Fin 16 → EReal) (cW2 : Fin 16 → Fin 8 → EReal) (cb2 : Fin 8 → EReal)
    (mW1 : Fin 16 → Fin 16 → EReal) (mb1 : Fin 16 → EReal) (mW2 : Fin 16 → Fin 2 → EReal) (mb2 : Fin 2 → EReal)
    (q : Fin 8) : EReal :=
  gate (mlp x mW1 mb1 mW2 mb2) 0 * g q + gate (mlp x mW1 mb1 mW2 mb2) 1 * mlp (tail13 x) cW1 cb1 cW2 cb2 q

end Cert.MoeRow

end
-- ==== Proof.MoeArray.lean ====
/-
  The mixture over all nodes: the [100000, 8] array whose entry (n, q) is node n's output at column q
  (MoeRow's `outRow`), as one function of the node features, the graph expert's values and the two perceptrons'
  weights and biases.
-/
import Idealize.ShloMosaic.Lib.ValueIdx
import proofs.«178898_j4002909520310_1_alg».proof.Proof.MoeRow

noncomputable section

namespace Cert.MoeRow

open Idealize.ShloMosaic Idealize.ShloMosaic.ValueIdx

/-- The node an index of the [100000, 8] output belongs to. -/
def rowOf (i : (⟨2, ![100000, 8]⟩ : Shape).Idx) : Fin 100000 := ⟨(i 0).val, (i 0).isLt⟩
/-- The column of an index of the [100000, 8] output. -/
def colOf (i : (⟨2, ![100000, 8]⟩ : Shape).Idx) : Fin 8 := ⟨(i 1).val, (i 1).isLt⟩

theorem rowOf_ix2 (n : Fin 100000) (q : Fin 8) : rowOf (ix2 n q) = n := rfl
theorem colOf_ix2 (n : Fin 100000) (q : Fin 8) : colOf (ix2 n q) = q := rfl
theorem eq_ix2_rowOf_colOf (i : (⟨2, ![100000, 8]⟩ : Shape).Idx) : i = ix2 (rowOf i) (colOf i) := by
  funext a; match a with | ⟨0, _⟩ => rfl | ⟨1, _⟩ => rfl

/-- Entry (n, q) of the output: node n's features and graph values, through the row function. -/
def moeOut (x : (⟨2, ![100000, 16]⟩ : Shape).Idx → EReal) (g : (⟨2, ![100000, 8]⟩ : Shape).Idx → EReal)
    (cW1 : (⟨2, ![13, 16]⟩ : Shape).Idx → EReal) (cb1 : (⟨1, ![16]⟩ : Shape).Idx → EReal)
    (cW2 : (⟨2, ![16, 8]⟩ : Shape).Idx → EReal) (cb2 : (⟨1, ![8]⟩ : Shape).Idx → EReal)
    (mW1 : (⟨2, ![16, 16]⟩ : Shape).Idx → EReal) (mb1 : (⟨1, ![16]⟩ : Shape).Idx → EReal)
    (mW2 : (⟨2, ![16, 2]⟩ : Shape).Idx → EReal) (mb2 : (⟨1, ![2]⟩ : Shape).Idx → EReal) :
    (⟨2, ![100000, 8]⟩ : Shape).Idx → EReal := fun i =>
  outRow (fun c => x (ix2 (rowOf i) c)) (fun q => g (ix2 (rowOf i) q))
    (fun c k => cW1 (ix2 c k)) (fun k => cb1 (ix1 k)) (fun k q => cW2 (ix2 k q)) (fun q => cb2 (ix1 q))
    (fun c k => mW1 (ix2 c k)) (fun k => mb1 (ix1 k)) (fun k l => mW2 (ix2 k l)) (fun l => mb2 (ix1 l)) (colOf i)

/-- The mixture at (n, q), read off its definition. -/
theorem moeOut_at (x : (⟨2, ![100000, 16]⟩ : Shape).Idx → EReal) (g : (⟨2, ![100000, 8]⟩ : Shape).Idx → EReal)
    (cW1 : (⟨2, ![13, 16]⟩ : Shape).Idx → EReal) (cb1 : (⟨1, ![16]⟩ : Shape).Idx → EReal)
    (cW2 : (⟨2, ![16, 8]⟩ : Shape).Idx → EReal) (cb2 : (⟨1, ![8]⟩ : Shape).Idx → EReal)
    (mW1 : (⟨2, ![16, 16]⟩ : Shape).Idx → EReal) (mb1 : (⟨1, ![16]⟩ : Shape).Idx → EReal)
    (mW2 : (⟨2, ![16, 2]⟩ : Shape).Idx → EReal) (mb2 : (⟨1, ![2]⟩ : Shape).Idx → EReal) (n : Fin 100000) (q : Fin 8) :
    moeOut x g cW1 cb1 cW2 cb2 mW1 mb1 mW2 mb2 (ix2 n q)
      = outRow (fun c => x (ix2 n c)) (fun q' => g (ix2 n q'))
          (fun c k => cW1 (ix2 c k)) (fun k => cb1 (ix1 k)) (fun k q' => cW2 (ix2 k q')) (fun q' => cb2 (ix1 q'))
          (fun c k => mW1 (ix2 c k)) (fun k => mb1 (ix1 k)) (fun k l => mW2 (ix2 k l)) (fun l => mb2 (ix1 l)) q := rfl

/-- A one-row matrix read as a vector. -/
def rowVec {n : ℕ} (v : (⟨2, ![1, n]⟩ : Shape).Idx → EReal) : (⟨1, ![n]⟩ : Shape).Idx → EReal :=
  fun i => v (ix2 (0 : Fin 1) (⟨(i 0).val, (i 0).isLt⟩ : Fin n))

theorem rowVec_at {n : ℕ} (v : (⟨2, ![1, n]⟩ : Shape).Idx → EReal) (b : Fin n) : rowVec v (ix1 b) = v (ix2 (0 : Fin 1) b) := rfl

end Cert.MoeRow

end
-- ==== Proof.LibDotSum.lean ====
/-
  A matrix product with one contracted axis, as a plain sum over that axis.
-/
import Idealize.ShloMosaic.PureOps.Ideal
import Idealize.ShloMosaic.PureOps.Ideal.Laws
import Idealize.ShloMosaic.Lib.ValueIdx

noncomputable section

namespace Idealize.ShloMosaic.DotSum

open Idealize.ShloMosaic Idealize.ShloMosaic.ValueIdx

/-- For dimension numbers that contract the one shared axis of an `[M, K]` and a `[K, N]` operand — the left
    operand read at `(row, q)`, the right at `(q, column)` — the sum of products over the contraction index is
    the sum over `k < K` of `x (row, k) · w (k, column)`. -/
theorem sum_contr_eq {M K N : Nat} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (x : (⟨2, ![M, K]⟩ : Shape).Idx → EReal) (w : (⟨2, ![K, N]⟩ : Shape).Idx → EReal)
    (j : (⟨2, ![M, N]⟩ : Shape).Idx) :
    ∑ q : D.contr.Idx, x (D.lhsIdx j q) * w (D.rhsIdx j q) = ∑ k : Fin K, x (ix2 (j 0) k) * w (ix2 k (j 1)) := by
  rw [← Equiv.sum_comp (contrEquiv1 D K hr hs).symm (fun q => x (D.lhsIdx j q) * w (D.rhsIdx j q))]
  refine Finset.sum_congr rfl fun k _ => ?_
  have e := contrEquiv1_symm_val D K hr hs k
  congr 1
  · refine congrArg x (funext fun a => Fin.ext ?_)
    match a with
    | ⟨0, _⟩ => exact hl0 j _
    | ⟨1, _⟩ => exact (hl1 j _).trans e
  · refine congrArg w (funext fun a => Fin.ext ?_)
    match a with
    | ⟨0, _⟩ => exact (hr0 j _).trans e
    | ⟨1, _⟩ => exact hr1 j _

end Idealize.ShloMosaic.DotSum

end
-- ==== Proof.LibKeepdims.lean ====
/-
  A per-row value kept as a column: a length-`a` vector cast to an `[a, 1]` matrix, and an `[a, 1]` matrix
  broadcast along its rows to `[a, b]`, each read at an index given by its coordinates.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims
-- ==== Proof.KerRow.lean ====
/-
  What one grid point of the kernel leaves in its output block, entry by entry, is the mixture's row function
  (MoeRow) of the rows of the blocks it loaded.

  The point holds a block of 5000 nodes: their features `P0` and graph values `P5`, and the whole weight
  matrices and bias rows.  Its four block products accumulate into zero, so each is the plain sum over the shared
  axis; narrowing an operand to bf16 changes nothing at the ideal values; each bias is a one-row matrix broadcast
  down the block's rows; the softmax's maximum and normaliser are reductions along the two logits of a row.
-/
import proofs.«178898_j4002909520310_1_alg».proof.Proof.KernelValueP
import proofs.«178898_j4002909520310_1_alg».proof.Proof.MoeArray
import proofs.«178898_j4002909520310_1_alg».proof.Proof.LibDotSum
import proofs.«178898_j4002909520310_1_alg».proof.Proof.LibKeepdims
import Idealize.ShloMosaic.Lib.ValueLayout
import Idealize.ShloMosaic.PureOps.Ideal.Laws

noncomputable section

namespace Cert.KernelIdeal.RowValue

open Cert.KernelIdeal Cert.KernelIdeal.Gen Cert.KernelIdeal.ValueP Idealize.ShloMosaic Idealize.ShloMosaic.ValueIdx Cert.MoeRow

/-! ## The four block products as sums -/

theorem mmA_l0 (i : S5000x16.Idx) (q : dot_S5000x13_S13x16_S5000x16_1_0_0_1_n_n.contr.Idx) : (dot_S5000x13_S13x16_S5000x16_1_0_0_1_n_n.lhsIdx i q 0).val = (i 0).val := by
  unfold DotDims.lhsIdx
  rw [dif_neg (show ¬(0 : Fin S5000x13.rank) ∈ dot_S5000x13_S13x16_S5000x16_1_0_0_1_n_n.lhsBatch by decide), dif_pos (show (0 : Fin S5000x13.rank) ∈ dot_S5000x13_S13x16_S5000x16_1_0_0_1_n_n.lhsNonContracting by decide)]
  rfl
theorem mmA_l1 (i : S5000x16.Idx) (q : dot_S5000x13_S13x16_S5000x16_1_0_0_1_n_n.contr.Idx) : (dot_S5000x13_S13x16_S5000x16_1_0_0_1_n_n.lhsIdx i q 1).val = (q ⟨0, by decide⟩).val :=
  dot_S5000x13_S13x16_S5000x16_1_0_0_1_n_n.lhsIdx_val_of_single rfl i q
theorem mmA_r0 (i : S5000x16.Idx) (q : dot_S5000x13_S13x16_S5000x16_1_0_0_1_n_n.contr.Idx) : (dot_S5000x13_S13x16_S5000x16_1_0_0_1_n_n.rhsIdx i q 0).val = (q ⟨0, by decide⟩).val :=
  dot_S5000x13_S13x16_S5000x16_1_0_0_1_n_n.rhsIdx_val_of_single rfl i q
theorem mmA_r1 (i : S5000x16.Idx) (q : dot_S5000x13_S13x16_S5000x16_1_0_0_1_n_n.contr.Idx) : (dot_S5000x13_S13x16_S5000x16_1_0_0_1_n_n.rhsIdx i q 1).val = (i 1).val := by
  unfold DotDims.rhsIdx
  rw [dif_neg (show ¬(1 : Fin S13x16.rank) ∈ dot_S5000x13_S13x16_S5000x16_1_0_0_1_n_n.rhsBatch by decide), dif_pos (show (1 : Fin S13x16.rank) ∈ dot_S5000x13_S13x16_S5000x16_1_0_0_1_n_n.rhsNonContracting by decide)]
  rfl
/-- The [5000, 13] × [13, 16] block product into a zero accumulator, at (p, n): the sum over the shared axis. -/
theorem mmA_at (l : FVec Ideal S5000x13 .bf16) (r : FVec Ideal S13x16 .bf16) (p : Fin 5000) (n : Fin 16) :
    matmul dot_S5000x13_S13x16_S5000x16_1_0_0_1_n_n none l r (constant (F := Ideal) S5000x16 .f32 0x00000000#32) (ix2 p n) = ∑ k : Fin 13, l (ix2 p k) * r (ix2 k n) :=
  (Ideal.matmul_constant_zero_apply dot_S5000x13_S13x16_S5000x16_1_0_0_1_n_n none l r (ix2 p n)).trans
    (DotSum.sum_contr_eq dot_S5000x13_S13x16_S5000x16_1_0_0_1_n_n rfl rfl mmA_l0 mmA_l1 mmA_r0 mmA_r1 l r (ix2 p n))

theorem mmB_l0 (i : S5000x8.Idx) (q : dot_S5000x16_S16x8_S5000x8_1_0_0_1_n_n.contr.Idx) : (dot_S5000x16_S16x8_S5000x8_1_0_0_1_n_n.lhsIdx i q 0).val = (i 0).val := by
  unfold DotDims.lhsIdx
  rw [dif_neg (show ¬(0 : Fin S5000x16.rank) ∈ dot_S5000x16_S16x8_S5000x8_1_0_0_1_n_n.lhsBatch by decide), dif_pos (show (0 : Fin S5000x16.rank) ∈ dot_S5000x16_S16x8_S5000x8_1_0_0_1_n_n.lhsNonContracting by decide)]
  rfl
theorem mmB_l1 (i : S5000x8.Idx) (q : dot_S5000x16_S16x8_S5000x8_1_0_0_1_n_n.contr.Idx) : (dot_S5000x16_S16x8_S5000x8_1_0_0_1_n_n.lhsIdx i q 1).val = (q ⟨0, by decide⟩).val :=
  dot_S5000x16_S16x8_S5000x8_1_0_0_1_n_n.lhsIdx_val_of_single rfl i q
theorem mmB_r0 (i : S5000x8.Idx) (q : dot_S5000x16_S16x8_S5000x8_1_0_0_1_n_n.contr.Idx) : (dot_S5000x16_S16x8_S5000x8_1_0_0_1_n_n.rhsIdx i q 0).val = (q ⟨0, by decide⟩).val :=
  dot_S5000x16_S16x8_S5000x8_1_0_0_1_n_n.rhsIdx_val_of_single rfl i q
theorem mmB_r1 (i : S5000x8.Idx) (q : dot_S5000x16_S16x8_S5000x8_1_0_0_1_n_n.contr.Idx) : (dot_S5000x16_S16x8_S5000x8_1_0_0_1_n_n.rhsIdx i q 1).val = (i 1).val := by
  unfold DotDims.rhsIdx
  rw [dif_neg (show ¬(1 : Fin S16x8.rank) ∈ dot_S5000x16_S16x8_S5000x8_1_0_0_1_n_n.rhsBatch by decide), dif_pos (show (1 : Fin S16x8.rank) ∈ dot_S5000x16_S16x8_S5000x8_1_0_0_1_n_n.rhsNonContracting by decide)]
  rfl
/-- The [5000, 16] × [16, 8] block product into a zero accumulator, at (p, n): the sum over the shared axis. -/
theorem mmB_at (l : FVec Ideal S5000x16 .bf16) (r : FVec Ideal S16x8 .bf16) (p : Fin 5000) (n : Fin 8) :
    matmul dot_S5000x16_S16x8_S5000x8_1_0_0_1_n_n none l r (constant (F := Ideal) S5000x8 .f32 0x00000000#32) (ix2 p n) = ∑ k : Fin 16, l (ix2 p k) * r (ix2 k n) :=
  (Ideal.matmul_constant_zero_apply dot_S5000x16_S16x8_S5000x8_1_0_0_1_n_n none l r (ix2 p n)).trans
    (DotSum.sum_contr_eq dot_S5000x16_S16x8_S5000x8_1_0_0_1_n_n rfl rfl mmB_l0 mmB_l1 mmB_r0 mmB_r1 l r (ix2 p n))

theorem mmC_l0 (i : S5000x16.Idx) (q : dot_S5000x16_S16x16_S5000x16_1_0_0_1_n_n.contr.Idx) : (dot_S5000x16_S16x16_S5000x16_1_0_0_1_n_n.lhsIdx i q 0).val = (i 0).val := by
  unfold DotDims.lhsIdx
  rw [dif_neg (show ¬(0 : Fin S5000x16.rank) ∈ dot_S5000x16_S16x16_S5000x16_1_0_0_1_n_n.lhsBatch by decide), dif_pos (show (0 : Fin S5000x16.rank) ∈ dot_S5000x16_S16x16_S5000x16_1_0_0_1_n_n.lhsNonContracting by decide)]
  rfl
theorem mmC_l1 (i : S5000x16.Idx) (q : dot_S5000x16_S16x16_S5000x16_1_0_0_1_n_n.contr.Idx) : (dot_S5000x16_S16x16_S5000x16_1_0_0_1_n_n.lhsIdx i q 1).val = (q ⟨0, by decide⟩).val :=
  dot_S5000x16_S16x16_S5000x16_1_0_0_1_n_n.lhsIdx_val_of_single rfl i q
theorem mmC_r0 (i : S5000x16.Idx) (q : dot_S5000x16_S16x16_S5000x16_1_0_0_1_n_n.contr.Idx) : (dot_S5000x16_S16x16_S5000x16_1_0_0_1_n_n.rhsIdx i q 0).val = (q ⟨0, by decide⟩).val :=
  dot_S5000x16_S16x16_S5000x16_1_0_0_1_n_n.rhsIdx_val_of_single rfl i q
theorem mmC_r1 (i : S5000x16.Idx) (q : dot_S5000x16_S16x16_S5000x16_1_0_0_1_n_n.contr.Idx) : (dot_S5000x16_S16x16_S5000x16_1_0_0_1_n_n.rhsIdx i q 1).val = (i 1).val := by
  unfold DotDims.rhsIdx
  rw [dif_neg (show ¬(1 : Fin S16x16.rank) ∈ dot_S5000x16_S16x16_S5000x16_1_0_0_1_n_n.rhsBatch by decide), dif_pos (show (1 : Fin S16x16.rank) ∈ dot_S5000x16_S16x16_S5000x16_1_0_0_1_n_n.rhsNonContracting by decide)]
  rfl
/-- The [5000, 16] × [16, 16] block product into a zero accumulator, at (p, n): the sum over the shared axis. -/
theorem mmC_at (l : FVec Ideal S5000x16 .bf16) (r : FVec Ideal S16x16 .bf16) (p : Fin 5000) (n : Fin 16) :
    matmul dot_S5000x16_S16x16_S5000x16_1_0_0_1_n_n none l r (constant (F := Ideal) S5000x16 .f32 0x00000000#32) (ix2 p n) = ∑ k : Fin 16, l (ix2 p k) * r (ix2 k n) :=
  (Ideal.matmul_constant_zero_apply dot_S5000x16_S16x16_S5000x16_1_0_0_1_n_n none l r (ix2 p n)).trans
    (DotSum.sum_contr_eq dot_S5000x16_S16x16_S5000x16_1_0_0_1_n_n rfl rfl mmC_l0 mmC_l1 mmC_r0 mmC_r1 l r (ix2 p n))

theorem mmD_l0 (i : S5000x2.Idx) (q : dot_S5000x16_S16x2_S5000x2_1_0_0_1_n_n.contr.Idx) : (dot_S5000x16_S16x2_S5000x2_1_0_0_1_n_n.lhsIdx i q 0).val = (i 0).val := by
  unfold DotDims.lhsIdx
  rw [dif_neg (show ¬(0 : Fin S5000x16.rank) ∈ dot_S5000x16_S16x2_S5000x2_1_0_0_1_n_n.lhsBatch by decide), dif_pos (show (0 : Fin S5000x16.rank) ∈ dot_S5000x16_S16x2_S5000x2_1_0_0_1_n_n.lhsNonContracting by decide)]
  rfl
theorem mmD_l1 (i : S5000x2.Idx) (q : dot_S5000x16_S16x2_S5000x2_1_0_0_1_n_n.contr.Idx) : (dot_S5000x16_S16x2_S5000x2_1_0_0_1_n_n.lhsIdx i q 1).val = (q ⟨0, by decide⟩).val :=
  dot_S5000x16_S16x2_S5000x2_1_0_0_1_n_n.lhsIdx_val_of_single rfl i q
theorem mmD_r0 (i : S5000x2.Idx) (q : dot_S5000x16_S16x2_S5000x2_1_0_0_1_n_n.contr.Idx) : (dot_S5000x16_S16x2_S5000x2_1_0_0_1_n_n.rhsIdx i q 0).val = (q ⟨0, by decide⟩).val :=
  dot_S5000x16_S16x2_S5000x2_1_0_0_1_n_n.rhsIdx_val_of_single rfl i q
theorem mmD_r1 (i : S5000x2.Idx) (q : dot_S5000x16_S16x2_S5000x2_1_0_0_1_n_n.contr.Idx) : (dot_S5000x16_S16x2_S5000x2_1_0_0_1_n_n.rhsIdx i q 1).val = (i 1).val := by
  unfold DotDims.rhsIdx
  rw [dif_neg (show ¬(1 : Fin S16x2.rank) ∈ dot_S5000x16_S16x2_S5000x2_1_0_0_1_n_n.rhsBatch by decide), dif_pos (show (1 : Fin S16x2.rank) ∈ dot_S5000x16_S16x2_S5000x2_1_0_0_1_n_n.rhsNonContracting by decide)]
  rfl
/-- The [5000, 16] × [16, 2] block product into a zero accumulator, at (p, n): the sum over the shared axis. -/
theorem mmD_at (l : FVec Ideal S5000x16 .bf16) (r : FVec Ideal S16x2 .bf16) (p : Fin 5000) (n : Fin 2) :
    matmul dot_S5000x16_S16x2_S5000x2_1_0_0_1_n_n none l r (constant (F := Ideal) S5000x2 .f32 0x00000000#32) (ix2 p n) = ∑ k : Fin 16, l (ix2 p k) * r (ix2 k n) :=
  (Ideal.matmul_constant_zero_apply dot_S5000x16_S16x2_S5000x2_1_0_0_1_n_n none l r (ix2 p n)).trans
    (DotSum.sum_contr_eq dot_S5000x16_S16x2_S5000x2_1_0_0_1_n_n rfl rfl mmD_l0 mmD_l1 mmD_r0 mmD_r1 l r (ix2 p n))

/-! ## The two perceptrons on a block, at a row -/

/-- A hidden layer as the point computes it — the block product of the bf16-narrowed operands into zero, the bias row
    broadcast down the block, the maximum with the zero splat — at (p, k). -/
theorem hiddenA_at (X : FVec Ideal S5000x13 .f32) (W : Vec Ideal S13x16 .f32) (B : Vec Ideal S1x16 .f32) (p : Fin 5000) (k : Fin 16) :
    maximumf (addf (matmul dot_S5000x13_S13x16_S5000x16_1_0_0_1_n_n none (truncf .bf16 X bitsLt_bf16_f32) (truncf .bf16 W bitsLt_bf16_f32)
        (constant (F := Ideal) S5000x16 .f32 0x00000000#32))
      (broadcastTo S5000x16 (shapeCast S1x16 B shapeCasts_S1x16_S1x16) broadcasts_S1x16_S5000x16))
      (broadcast S5000x16 (Scalar.ofBits (F := Ideal) .f32 0x00000000#32)) (ix2 p k)
    = hid (fun c => X (ix2 p c)) (fun c h => W (ix2 c h)) (fun h => B (ix2 (0 : Fin 1) h)) k := by
  show max (matmul dot_S5000x13_S13x16_S5000x16_1_0_0_1_n_n none (truncf .bf16 X bitsLt_bf16_f32) (truncf .bf16 W bitsLt_bf16_f32)
        (constant (F := Ideal) S5000x16 .f32 0x00000000#32) (ix2 p k)
      + broadcastTo S5000x16 (shapeCast S1x16 B shapeCasts_S1x16_S1x16) broadcasts_S1x16_S5000x16 (ix2 p k)) zero32 = _
  rw [mmA_at, broadcastTo_1b_ab_apply, shapeCast_self]
  rfl

theorem hiddenC_at (X : Vec Ideal S5000x16 .f32) (W : Vec Ideal S16x16 .f32) (B : Vec Ideal S1x16 .f32) (p : Fin 5000) (k : Fin 16) :
    maximumf (addf (matmul dot_S5000x16_S16x16_S5000x16_1_0_0_1_n_n none (truncf .bf16 X bitsLt_bf16_f32) (truncf .bf16 W bitsLt_bf16_f32)
        (constant (F := Ideal) S5000x16 .f32 0x00000000#32))
      (broadcastTo S5000x16 (shapeCast S1x16 B shapeCasts_S1x16_S1x16) broadcasts_S1x16_S5000x16))
      (broadcast S5000x16 (Scalar.ofBits (F := Ideal) .f32 0x00000000#32)) (ix2 p k)
    = hid (fun c => X (ix2 p c)) (fun c h => W (ix2 c h)) (fun h => B (ix2 (0 : Fin 1) h)) k := by
  show max (matmul dot_S5000x16_S16x16_S5000x16_1_0_0_1_n_n none (truncf .bf16 X bitsLt_bf16_f32) (truncf .bf16 W bitsLt_bf16_f32)
        (constant (F := Ideal) S5000x16 .f32 0x00000000#32) (ix2 p k)
      + broadcastTo S5000x16 (shapeCast S1x16 B shapeCasts_S1x16_S1x16) broadcasts_S1x16_S5000x16 (ix2 p k)) zero32 = _
  rw [mmC_at, broadcastTo_1b_ab_apply, shapeCast_self]
  rfl

/-- The cut of the block's last 13 feature columns, at (p, c). -/
theorem tail_at (P0 : Vec Ideal S5000x16 .f32) (p : Fin 5000) (c : Fin 13) :
    extractStridedSlice S5000x13 ![0, 3] P0 slices_S5000x16_o0_3_S5000x13 (ix2 p c) = tail13 (fun c' => P0 (ix2 p c')) c :=
  slice2_axis1_apply 3 P0 slices_S5000x16_o0_3_S5000x13 p c ⟨3 + c.val, by have := c.isLt; omega⟩ rfl

/-- The context expert's hidden layer on the block. -/
abbrev ctxHidden (P0 : Vec Ideal S5000x16 .f32) (P6 : Vec Ideal S13x16 .f32) (P7 : Vec Ideal S1x16 .f32) : FVec Ideal S5000x16 .f32 :=
  maximumf (addf (matmul dot_S5000x13_S13x16_S5000x16_1_0_0_1_n_n none
      (truncf .bf16 (extractStridedSlice S5000x13 ![0, 3] P0 slices_S5000x16_o0_3_S5000x13) bitsLt_bf16_f32) (truncf .bf16 P6 bitsLt_bf16_f32)
      (constant (F := Ideal) S5000x16 .f32 0x00000000#32))
    (broadcastTo S5000x16 (shapeCast S1x16 P7 shapeCasts_S1x16_S1x16) broadcasts_S1x16_S5000x16))
    (broadcast S5000x16 (Scalar.ofBits (F := Ideal) .f32 0x00000000#32))

theorem ctxHidden_at (P0 : Vec Ideal S5000x16 .f32) (P6 : Vec Ideal S13x16 .f32) (P7 : Vec Ideal S1x16 .f32) (p : Fin 5000) (k : Fin 16) :
    ctxHidden P0 P6 P7 (ix2 p k) = hid (tail13 fun c => P0 (ix2 p c)) (fun c h => P6 (ix2 c h)) (fun h => P7 (ix2 (0 : Fin 1) h)) k := by
  have h1 := hiddenA_at (extractStridedSlice S5000x13 ![0, 3] P0 slices_S5000x16_o0_3_S5000x13) P6 P7 p k
  have h2 : (fun c : Fin 13 => extractStridedSlice S5000x13 ![0, 3] P0 slices_S5000x16_o0_3_S5000x13 (ix2 p c))
      = tail13 fun c => P0 (ix2 p c) := funext fun c => tail_at P0 p c
  rw [h2] at h1
  exact h1

/-- A second layer as the point computes it, over any hidden block `H`: the block product of the bf16-narrowed
    operands into zero plus the bias row, at (p, q). -/
theorem secondB_at (H : FVec Ideal S5000x16 .f32) (W : Vec Ideal S16x8 .f32) (B : Vec Ideal S1x8 .f32) (p : Fin 5000) (q : Fin 8) :
    addf (matmul dot_S5000x16_S16x8_S5000x8_1_0_0_1_n_n none (truncf .bf16 H bitsLt_bf16_f32) (truncf .bf16 W bitsLt_bf16_f32)
        (constant (F := Ideal) S5000x8 .f32 0x00000000#32))
      (broadcastTo S5000x8 (shapeCast S1x8 B shapeCasts_S1x8_S1x8) broadcasts_S1x8_S5000x8) (ix2 p q)
    = lin (fun k => H (ix2 p k)) (fun k q' => W (ix2 k q')) q + B (ix2 (0 : Fin 1) q) := by
  show matmul dot_S5000x16_S16x8_S5000x8_1_0_0_1_n_n none (truncf .bf16 H bitsLt_bf16_f32) (truncf .bf16 W bitsLt_bf16_f32)
        (constant (F := Ideal) S5000x8 .f32 0x00000000#32) (ix2 p q)
      + broadcastTo S5000x8 (shapeCast S1x8 B shapeCasts_S1x8_S1x8) broadcasts_S1x8_S5000x8 (ix2 p q) = _
  rw [mmB_at, broadcastTo_1b_ab_apply, shapeCast_self]
  rfl

/-- The context expert's value on the block, at (p, q). -/
theorem ctx_at (P0 : Vec Ideal S5000x16 .f32) (P6 : Vec Ideal S13x16 .f32) (P7 : Vec Ideal S1x16 .f32) (P8 : Vec Ideal S16x8 .f32)
    (P9 : Vec Ideal S1x8 .f32) (p : Fin 5000) (q : Fin 8) :
    k0_pay2 P0 P6 P7 P8 P9 (ix2 p q)
      = mlp (tail13 fun c => P0 (ix2 p c)) (fun c h => P6 (ix2 c h)) (fun h => P7 (ix2 (0 : Fin 1) h))
          (fun k q' => P8 (ix2 k q')) (fun q' => P9 (ix2 (0 : Fin 1) q')) q :=
  (secondB_at (ctxHidden P0 P6 P7) P8 P9 p q).trans
    (congrArg (fun v => lin v (fun k q' => P8 (ix2 k q')) q + P9 (ix2 (0 : Fin 1) q)) (funext fun k => ctxHidden_at P0 P6 P7 p k))

/-- The gate's second product on the block, at (p, l): the logit without its bias. -/
theorem logit0_at (P0 : Vec Ideal S5000x16 .f32) (P1 : Vec Ideal S16x16 .f32) (P2 : Vec Ideal S1x16 .f32) (P3 : Vec Ideal S16x2 .f32)
    (p : Fin 5000) (l : Fin 2) :
    k0_pay3 P0 P1 P2 P3 (ix2 p l)
      = lin (hid (fun c => P0 (ix2 p c)) (fun c h => P1 (ix2 c h)) (fun h => P2 (ix2 (0 : Fin 1) h))) (fun k l' => P3 (ix2 k l')) l := by
  unfold k0_pay3
  show matmul dot_S5000x16_S16x2_S5000x2_1_0_0_1_n_n none _ (truncf .bf16 P3 bitsLt_bf16_f32) (constant (F := Ideal) S5000x2 .f32 0x00000000#32) (ix2 p l) = _
  rw [mmD_at]
  unfold lin
  exact Finset.sum_congr rfl fun k _ => congrArg (· * P3 (ix2 k l)) (hiddenC_at P0 P1 P2 p k)

/-! ## The softmax along a row of the block -/

/-- A row maximum taken by a lane reduction from -∞, at row p: the fold of `max` over the row's two entries. -/
theorem rowMax_at (L : FVec Ideal S5000x2 .f32) (p : Fin 5000) :
    multiReduction .maximumf [1] S5000 L 0xFF800000#32 reduces_S5000x2_S5000 (.inl rfl) rfl (ix1 p) = rowMax (fun l => L (ix2 p l)) := by
  refine (Ideal.multiReduction_maximumf_single L 0xFF800000#32 reduces_S5000x2_S5000 (.inl rfl) rfl (ix1 p)).trans ?_
  have hl : (L ∘ reduces_S5000x2_S5000.lift (ix1 p)) = fun l : Fin 2 => L (ix2 p l) :=
    funext fun l => congrArg L (funext fun a => Fin.ext (by match a with | ⟨0, _⟩ => rfl | ⟨1, _⟩ => rfl))
  rw [hl]
  rfl

/-- A row sum taken by a lane reduction from 0, at row p. -/
theorem rowSum_at (E : FVec Ideal S5000x2 .f32) (p : Fin 5000) :
    multiReduction .add [1] S5000 E 0x00000000#32 reduces_S5000x2_S5000 (.inl rfl) rfl (ix1 p) = ∑ l : Fin 2, E (ix2 p l) := by
  refine (Ideal.multiReduction_add_single E 0x00000000#32 reduces_S5000x2_S5000 (.inl rfl) rfl (ix1 p)).trans ?_
  exact Finset.sum_congr rfl fun l _ => congrArg E (funext fun a => Fin.ext (by match a with | ⟨0, _⟩ => rfl | ⟨1, _⟩ => rfl))

/-- The exponentials of a block of logits, each row shifted by its own maximum (kept as a column and broadcast
    back along the row), at (p, l). -/
theorem expBlk_at (L : FVec Ideal S5000x2 .f32) (p : Fin 5000) (l : Fin 2) :
    exp (subf L (broadcastTo S5000x2 (shapeCast S5000x1 (multiReduction .maximumf [1] S5000 L 0xFF800000#32 reduces_S5000x2_S5000 (.inl rfl) rfl)
        shapeCasts_S5000_S5000x1) broadcasts_S5000x1_S5000x2)) (ix2 p l)
      = expShift (fun l' => L (ix2 p l')) l := by
  show Ideal.exp (L (ix2 p l) - broadcastTo S5000x2 (shapeCast S5000x1 (multiReduction .maximumf [1] S5000 L 0xFF800000#32 reduces_S5000x2_S5000 (.inl rfl) rfl)
        shapeCasts_S5000_S5000x1) broadcasts_S5000x1_S5000x2 (ix2 p l)) = _
  rw [Keepdims.broadcastTo_a1_ab_apply, Keepdims.shapeCast_a_a1_apply, rowMax_at]
  rfl

/-- The block's logits: the gate's second product plus its bias row. -/
abbrev logitsBlk (P0 : Vec Ideal S5000x16 .f32) (P1 : Vec Ideal S16x16 .f32) (P2 : Vec Ideal S1x16 .f32) (P3 : Vec Ideal S16x2 .f32)
    (P4 : Vec Ideal S1x2 .f32) : FVec Ideal S5000x2 .f32 :=
  addf (k0_pay3 P0 P1 P2 P3) (broadcastTo S5000x2 (shapeCast S1x2 P4 shapeCasts_S1x2_S1x2) broadcasts_S1x2_S5000x2)

theorem logitsBlk_at (P0 : Vec Ideal S5000x16 .f32) (P1 : Vec Ideal S16x16 .f32) (P2 : Vec Ideal S1x16 .f32) (P3 : Vec Ideal S16x2 .f32)
    (P4 : Vec Ideal S1x2 .f32) (p : Fin 5000) (l : Fin 2) :
    logitsBlk P0 P1 P2 P3 P4 (ix2 p l) = mlp (fun c => P0 (ix2 p c)) (fun c h => P1 (ix2 c h)) (fun h => P2 (ix2 (0 : Fin 1) h)) (fun k l' => P3 (ix2 k l')) (fun l' => P4 (ix2 (0 : Fin 1) l')) l := by
  show k0_pay3 P0 P1 P2 P3 (ix2 p l) + broadcastTo S5000x2 (shapeCast S1x2 P4 shapeCasts_S1x2_S1x2) broadcasts_S1x2_S5000x2 (ix2 p l) = _
  rw [logit0_at, broadcastTo_1b_ab_apply, shapeCast_self]
  rfl

theorem logitsRow_eq (P0 : Vec Ideal S5000x16 .f32) (P1 : Vec Ideal S16x16 .f32) (P2 : Vec Ideal S1x16 .f32) (P3 : Vec Ideal S16x2 .f32)
    (P4 : Vec Ideal S1x2 .f32) (p : Fin 5000) :
    (fun l => logitsBlk P0 P1 P2 P3 P4 (ix2 p l)) = mlp (fun c => P0 (ix2 p c)) (fun c h => P1 (ix2 c h)) (fun h => P2 (ix2 (0 : Fin 1) h)) (fun k l' => P3 (ix2 k l')) (fun l' => P4 (ix2 (0 : Fin 1) l')) :=
  funext fun l => logitsBlk_at P0 P1 P2 P3 P4 p l

/-! ## The output block, entry by entry -/

/-- Entry (p, q) of the block the point writes back: the row function of row p of the feature block and of the
    graph-value block, and of the weights and bias rows. -/
theorem E10_at (P0 : Vec Ideal S5000x16 .f32) (P1 : Vec Ideal S16x16 .f32) (P2 : Vec Ideal S1x16 .f32) (P3 : Vec Ideal S16x2 .f32) (P4 : Vec Ideal S1x2 .f32) (P5 : Vec Ideal S5000x8 .f32) (P6 : Vec Ideal S13x16 .f32) (P7 : Vec Ideal S1x16 .f32) (P8 : Vec Ideal S16x8 .f32) (P9 : Vec Ideal S1x8 .f32) (p : Fin 5000) (q : Fin 8) :
    E10 P0 P1 P2 P3 P4 P5 P6 P7 P8 P9 (ix2 p q)
      = outRow (fun c => P0 (ix2 p c)) (fun q' => P5 (ix2 p q'))
          (fun c h => P6 (ix2 c h)) (fun h => P7 (ix2 (0 : Fin 1) h)) (fun k q' => P8 (ix2 k q')) (fun q' => P9 (ix2 (0 : Fin 1) q'))
          (fun c h => P1 (ix2 c h)) (fun h => P2 (ix2 (0 : Fin 1) h)) (fun k l' => P3 (ix2 k l')) (fun l' => P4 (ix2 (0 : Fin 1) l')) q := by
  have i0 : ix10_0 (ix2 p q) = ix2 p (0 : Fin 2) := funext fun a => Fin.ext (by match a with | ⟨0, _⟩ => rfl | ⟨1, _⟩ => rfl)
  have i1 : ix10_1 (ix2 p q) = ix2 (0 : Fin 1) (0 : Fin 2) := funext fun a => Fin.ext (by match a with | ⟨0, _⟩ => rfl | ⟨1, _⟩ => rfl)
  have i2 : ix10_2 (ix2 p q) = ix1 p := funext fun a => Fin.ext (by match a with | ⟨0, _⟩ => rfl)
  have i3 : ix10_3 (ix2 p q) = ix1 p := funext fun a => Fin.ext (by match a with | ⟨0, _⟩ => rfl)
  have i4 : ix10_4 (ix2 p q) = ix2 p q := funext fun a => Fin.ext (by match a with | ⟨0, _⟩ => rfl | ⟨1, _⟩ => rfl)
  have i5 : ix10_5 (ix2 p q) = ix2 p (1 : Fin 2) := funext fun a => Fin.ext (by match a with | ⟨0, _⟩ => rfl | ⟨1, _⟩ => rfl)
  have i6 : ix10_6 (ix2 p q) = ix2 (0 : Fin 1) (1 : Fin 2) := funext fun a => Fin.ext (by match a with | ⟨0, _⟩ => rfl | ⟨1, _⟩ => rfl)
  have i7 : ix10_7 (ix2 p q) = ix1 p := funext fun a => Fin.ext (by match a with | ⟨0, _⟩ => rfl)
  have i8 : ix10_8 (ix2 p q) = ix1 p := funext fun a => Fin.ext (by match a with | ⟨0, _⟩ => rfl)
  have i9 : ix10_9 (ix2 p q) = ix2 p q := funext fun a => Fin.ext (by match a with | ⟨0, _⟩ => rfl | ⟨1, _⟩ => rfl)
  show Ideal.div (Ideal.exp ((k0_pay3 P0 P1 P2 P3 (ix10_0 (ix2 p q)) + P4 (ix10_1 (ix2 p q)))
          - multiReduction .maximumf [1] S5000 (logitsBlk P0 P1 P2 P3 P4) 0xFF800000#32 reduces_S5000x2_S5000 (.inl rfl) rfl (ix10_2 (ix2 p q))))
        (multiReduction .add [1] S5000 (exp (subf (logitsBlk P0 P1 P2 P3 P4) (broadcastTo S5000x2 (shapeCast S5000x1
          (multiReduction .maximumf [1] S5000 (logitsBlk P0 P1 P2 P3 P4) 0xFF800000#32 reduces_S5000x2_S5000 (.inl rfl) rfl)
          shapeCasts_S5000_S5000x1) broadcasts_S5000x1_S5000x2))) 0x00000000#32 reduces_S5000x2_S5000 (.inl rfl) rfl (ix10_3 (ix2 p q)))
        * P5 (ix10_4 (ix2 p q))
      + Ideal.div (Ideal.exp ((k0_pay3 P0 P1 P2 P3 (ix10_5 (ix2 p q)) + P4 (ix10_6 (ix2 p q)))
          - multiReduction .maximumf [1] S5000 (logitsBlk P0 P1 P2 P3 P4) 0xFF800000#32 reduces_S5000x2_S5000 (.inl rfl) rfl (ix10_7 (ix2 p q))))
        (multiReduction .add [1] S5000 (exp (subf (logitsBlk P0 P1 P2 P3 P4) (broadcastTo S5000x2 (shapeCast S5000x1
          (multiReduction .maximumf [1] S5000 (logitsBlk P0 P1 P2 P3 P4) 0xFF800000#32 reduces_S5000x2_S5000 (.inl rfl) rfl)
          shapeCasts_S5000_S5000x1) broadcasts_S5000x1_S5000x2))) 0x00000000#32 reduces_S5000x2_S5000 (.inl rfl) rfl (ix10_8 (ix2 p q)))
        * k0_pay2 P0 P6 P7 P8 P9 (ix10_9 (ix2 p q)) = _
  rw [i0, i1, i2, i3, i4, i5, i6, i7, i8, i9, rowMax_at, rowSum_at, ctx_at]
  have hs : (∑ x : Fin 2, exp (subf (logitsBlk P0 P1 P2 P3 P4) (broadcastTo S5000x2 (shapeCast S5000x1
          (multiReduction .maximumf [1] S5000 (logitsBlk P0 P1 P2 P3 P4) 0xFF800000#32 reduces_S5000x2_S5000 (.inl rfl) rfl)
          shapeCasts_S5000_S5000x1) broadcasts_S5000x1_S5000x2)) (ix2 p x))
      = ∑ x : Fin 2, expShift (mlp (fun c => P0 (ix2 p c)) (fun c h => P1 (ix2 c h)) (fun h => P2 (ix2 (0 : Fin 1) h)) (fun k l' => P3 (ix2 k l')) (fun l' => P4 (ix2 (0 : Fin 1) l'))) x :=
    Finset.sum_congr rfl fun x _ => by rw [expBlk_at, logitsRow_eq]
  have hl : ∀ l : Fin 2, k0_pay3 P0 P1 P2 P3 (ix2 p l) + P4 (ix2 (0 : Fin 1) l) = mlp (fun c => P0 (ix2 p c)) (fun c h => P1 (ix2 c h)) (fun h => P2 (ix2 (0 : Fin 1) h)) (fun k l' => P3 (ix2 k l')) (fun l' => P4 (ix2 (0 : Fin 1) l')) l := fun l => by
    rw [logit0_at]; rfl
  rw [hs, logitsRow_eq, hl 0, hl 1]
  rfl

end Cert.KernelIdeal.RowValue

end
-- ==== Proof.KerPoint.lean ====
/-
  One grid point, with nothing of the launch in it: if row p of the point's feature block and of its graph-value
  block is row n of the two arrays, and the point's weight and bias blocks are the whole arrays, then entry (p, q) of
  the block the point writes back is entry (n, q) of the mixture of the arrays.
-/
import proofs.«178898_j4002909520310_1_alg».proof.Proof.KerRow

noncomputable section

namespace Cert.KernelIdeal.PointValue

open Cert.KernelIdeal Cert.KernelIdeal.Gen Cert.KernelIdeal.ValueP Cert.KernelIdeal.RowValue
open Idealize.ShloMosaic Idealize.ShloMosaic.ValueIdx Cert.MoeRow

theorem point_core
    (B0 : Vec Ideal S5000x16 .f32) (B1 : Vec Ideal S5000x8 .f32) (B2 : Vec Ideal S13x16 .f32) (B3 : Vec Ideal S1x16 .f32) (B4 : Vec Ideal S16x8 .f32) (B5 : Vec Ideal S1x8 .f32) (B6 : Vec Ideal S16x16 .f32) (B7 : Vec Ideal S1x16 .f32) (B8 : Vec Ideal S16x2 .f32) (B9 : Vec Ideal S1x2 .f32)
    (X : S100000x16.Idx → EReal) (G : S100000x8.Idx → EReal)
    (A2 : S13x16.Idx → EReal) (A3 : S1x16.Idx → EReal) (A4 : S16x8.Idx → EReal) (A5 : S1x8.Idx → EReal)
    (A6 : S16x16.Idx → EReal) (A7 : S1x16.Idx → EReal) (A8 : S16x2.Idx → EReal) (A9 : S1x2.Idx → EReal)
    (n : Fin 100000) (p : Fin 5000) (q : Fin 8)
    (h0 : ∀ b : Fin 16, B0 (ix2 p b) = X (ix2 n b)) (h1 : ∀ b : Fin 8, B1 (ix2 p b) = G (ix2 n b))
    (h2 : ∀ (a : Fin 13) (b : Fin 16), B2 (ix2 a b) = A2 (ix2 a b)) (h3 : ∀ b : Fin 16, B3 (ix2 (0 : Fin 1) b) = A3 (ix2 (0 : Fin 1) b))
    (h4 : ∀ (a : Fin 16) (b : Fin 8), B4 (ix2 a b) = A4 (ix2 a b)) (h5 : ∀ b : Fin 8, B5 (ix2 (0 : Fin 1) b) = A5 (ix2 (0 : Fin 1) b))
    (h6 : ∀ (a : Fin 16) (b : Fin 16), B6 (ix2 a b) = A6 (ix2 a b)) (h7 : ∀ b : Fin 16, B7 (ix2 (0 : Fin 1) b) = A7 (ix2 (0 : Fin 1) b))
    (h8 : ∀ (a : Fin 16) (b : Fin 2), B8 (ix2 a b) = A8 (ix2 a b)) (h9 : ∀ b : Fin 2, B9 (ix2 (0 : Fin 1) b) = A9 (ix2 (0 : Fin 1) b)) :
    E10 B0 B6 B7 B8 B9 B1 B2 B3 B4 B5 (ix2 p q)
      = moeOut X G A2 (rowVec A3) A4 (rowVec A5) A6 (rowVec A7) A8 (rowVec A9) (ix2 n q) := by
  rw [E10_at, moeOut_at]
  simp only [h0, h1, h2, h3, h4, h5, h6, h7, h8, h9, rowVec_at]

end Cert.KernelIdeal.PointValue

end
-- ==== Proof.KerGrid.lean ====
/-
  The kernel's grid: 20 points; point t holds block row t of the node features, of the graph expert's values and of the
  output, and block (0, 0) — the whole array — of every weight matrix and bias row.  Decided over the 20 points.
-/
import proofs.«178898_j4002909520310_1_alg».proof.Proof.KernelValueP
import Idealize.ShloMosaic.Lib.ValueIdx

noncomputable section

namespace Cert.KernelIdeal.GridValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-! ## The index maps, decided over the 20 points -/

/-- The feature block, the graph-value block and the output block of a point sit at the same block row of their
    arrays, and none of them moves along the columns. -/
theorem idx_rows : ∀ t : Fin cfg0.N,
    win0_0.index t (0 : Fin 2) = win0_10.index t (0 : Fin 2) ∧ win0_0.index t (1 : Fin 2) = 0
    ∧ win0_1.index t (0 : Fin 2) = win0_10.index t (0 : Fin 2) ∧ win0_1.index t (1 : Fin 2) = 0
    ∧ win0_10.index t (1 : Fin 2) = 0 ∧ win0_10.index t (0 : Fin 2) ≤ 19 :=
  (by decide +kernel : ∀ t : Fin grid0.N, _)

/-- Every block row of the output is some point's. -/
theorem idx_onto : ∀ b : Fin 20, ∃ t : Fin cfg0.N, win0_10.index t (0 : Fin 2) = b.val :=
  (by decide +kernel : ∀ b : Fin 20, ∃ t : Fin grid0.N, win0_10.index t (0 : Fin 2) = b.val)
theorem idx_fix2 : ∀ t : Fin cfg0.N, win0_2.index t (0 : Fin 2) = 0 ∧ win0_2.index t (1 : Fin 2) = 0 :=
  (by decide +kernel : ∀ t : Fin grid0.N, _)
theorem idx_fix3 : ∀ t : Fin cfg0.N, win0_3.index t (0 : Fin 2) = 0 ∧ win0_3.index t (1 : Fin 2) = 0 :=
  (by decide +kernel : ∀ t : Fin grid0.N, _)
theorem idx_fix4 : ∀ t : Fin cfg0.N, win0_4.index t (0 : Fin 2) = 0 ∧ win0_4.index t (1 : Fin 2) = 0 :=
  (by decide +kernel : ∀ t : Fin grid0.N, _)
theorem idx_fix5 : ∀ t : Fin cfg0.N, win0_5.index t (0 : Fin 2) = 0 ∧ win0_5.index t (1 : Fin 2) = 0 :=
  (by decide +kernel : ∀ t : Fin grid0.N, _)
theorem idx_fix6 : ∀ t : Fin cfg0.N, win0_6.index t (0 : Fin 2) = 0 ∧ win0_6.index t (1 : Fin 2) = 0 :=
  (by decide +kernel : ∀ t : Fin grid0.N, _)
theorem idx_fix7 : ∀ t : Fin cfg0.N, win0_7.index t (0 : Fin 2) = 0 ∧ win0_7.index t (1 : Fin 2) = 0 :=
  (by decide +kernel : ∀ t : Fin grid0.N, _)
theorem idx_fix8 : ∀ t : Fin cfg0.N, win0_8.index t (0 : Fin 2) = 0 ∧ win0_8.index t (1 : Fin 2) = 0 :=
  (by decide +kernel : ∀ t : Fin grid0.N, _)
theorem idx_fix9 : ∀ t : Fin cfg0.N, win0_9.index t (0 : Fin 2) = 0 ∧ win0_9.index t (1 : Fin 2) = 0 :=
  (by decide +kernel : ∀ t : Fin grid0.N, _)

end Cert.KernelIdeal.GridValue

end
-- ==== Proof.KerBlocksA.lean ====
/-
  The three blocks that move with the grid point — node features, graph values, output — entry by entry: row p of
  point t's block is row 5000 t + p of the array.
-/
import proofs.«178898_j4002909520310_1_alg».proof.Proof.KerGrid

noncomputable section

namespace Cert.KernelIdeal.BlockA

open Cert.KernelIdeal Cert.KernelIdeal.Gen Cert.KernelIdeal.GridValue
open Idealize.ShloMosaic Idealize.ShloMosaic.TcCoe Idealize.SL.Sem Idealize.ShloMosaic.ValueIdx

variable (m : (ℓ : Loc nD τ sig) → Buf (Elt Ideal) ℓ)
/-- Where entry (p, b) of point t's feature block sits in the feature array. -/
theorem emb0 (t : Fin cfg0.N) (p : Fin 5000) (b : Fin 16) (n : Fin 100000)
    (hn : n.val = win0_10.index t (0 : Fin 2) * 5000 + p.val) :
    ((cfg0.win 0).blk t).view.emb (ix2 p b : S5000x16.Idx) = (ix2 n b : S100000x16.Idx) := by
  obtain ⟨e0, e1, -⟩ := idx_rows t
  funext x
  apply Fin.ext
  match x with
  | ⟨0, _⟩ => show win0_0.index t (0 : Fin 2) * 5000 + 1 * p.val = n.val; omega
  | ⟨1, _⟩ => show win0_0.index t (1 : Fin 2) * 16 + 1 * b.val = b.val; omega

theorem read0 (c : Dev nD) (t : Fin cfg0.N) (p : Fin 5000) (b : Fin 16) (n : Fin 100000)
    (hn : n.val = win0_10.index t (0 : Fin 2) * 5000 + p.val) :
    (iblk m c 0 t : Vec Ideal S5000x16 .f32) (ix2 p b) = (V m c main_arg0 : S100000x16.Idx → EReal) (ix2 n b) := by
  show (V m c main_arg0 : S100000x16.Idx → EReal) (((cfg0.win 0).blk t).view.emb (ix2 p b : S5000x16.Idx)) = _
  rw [emb0 t p b n hn]

/-- Where entry (p, b) of point t's graph-value block sits in the graph expert's array. -/
theorem emb1 (t : Fin cfg0.N) (p : Fin 5000) (b : Fin 8) (n : Fin 100000)
    (hn : n.val = win0_10.index t (0 : Fin 2) * 5000 + p.val) :
    ((cfg0.win 1).blk t).view.emb (ix2 p b : S5000x8.Idx) = (ix2 n b : S100000x8.Idx) := by
  obtain ⟨-, -, e0, e1, -⟩ := idx_rows t
  funext x
  apply Fin.ext
  match x with
  | ⟨0, _⟩ => show win0_1.index t (0 : Fin 2) * 5000 + 1 * p.val = n.val; omega
  | ⟨1, _⟩ => show win0_1.index t (1 : Fin 2) * 8 + 1 * b.val = b.val; omega

/-- Entry (p, b) of point t's graph-value block is entry (n, b) of the array that window stages. -/
theorem read1 (c : Dev nD) (t : Fin cfg0.N) (p : Fin 5000) (b : Fin 8) (n : Fin 100000)
    (hn : n.val = win0_10.index t (0 : Fin 2) * 5000 + p.val) :
    (iblk m c 1 t : Vec Ideal S5000x8 .f32) (ix2 p b) = (V m c (Pipeline.arrRef spec0 1) : S100000x8.Idx → EReal) (ix2 n b) := by
  unfold iblk
  rw [View.read_apply, emb1 t p b n hn]
  exact cast_eq _ _

/-- Where entry (p, q) of point t's output block sits in the output array. -/
theorem emb10 (t : Fin cfg0.N) (p : Fin 5000) (q : Fin 8) (n : Fin 100000)
    (hn : n.val = win0_10.index t (0 : Fin 2) * 5000 + p.val) :
    ((cfg0.win 10).blk t).view.emb (ix2 p q : S5000x8.Idx) = (ix2 n q : S100000x8.Idx) := by
  obtain ⟨-, -, -, -, e1, -⟩ := idx_rows t
  funext x
  apply Fin.ext
  match x with
  | ⟨0, _⟩ => show win0_10.index t (0 : Fin 2) * 5000 + 1 * p.val = n.val; omega
  | ⟨1, _⟩ => show win0_10.index t (1 : Fin 2) * 8 + 1 * q.val = q.val; omega

end Cert.KernelIdeal.BlockA

end
-- ==== Proof.KerBlocksB.lean ====
/-
  The context expert's weight and bias blocks are the whole arrays, entry by entry.
-/
import proofs.«178898_j4002909520310_1_alg».proof.Proof.KerGrid

noncomputable section

namespace Cert.KernelIdeal.BlockB

open Cert.KernelIdeal Cert.KernelIdeal.Gen Cert.KernelIdeal.GridValue
open Idealize.ShloMosaic Idealize.ShloMosaic.TcCoe Idealize.SL.Sem Idealize.ShloMosaic.ValueIdx

variable (m : (ℓ : Loc nD τ sig) → Buf (Elt Ideal) ℓ)
theorem emb2 (t : Fin cfg0.N) (a : Fin 13) (b : Fin 16) :
    ((cfg0.win 2).blk t).view.emb (ix2 a b : S13x16.Idx) = (ix2 a b : S13x16.Idx) := by
  obtain ⟨h0, h1⟩ := idx_fix2 t
  funext x
  apply Fin.ext
  match x with
  | ⟨0, _⟩ => show win0_2.index t (0 : Fin 2) * 13 + 1 * a.val = a.val; omega
  | ⟨1, _⟩ => show win0_2.index t (1 : Fin 2) * 16 + 1 * b.val = b.val; omega

theorem read2 (c : Dev nD) (t : Fin cfg0.N) (a : Fin 13) (b : Fin 16) :
    (iblk m c 2 t : Vec Ideal S13x16 .f32) (ix2 a b) = (V m c main_arg6 : S13x16.Idx → EReal) (ix2 a b) := by
  show (V m c main_arg6 : S13x16.Idx → EReal) (((cfg0.win 2).blk t).view.emb (ix2 a b : S13x16.Idx)) = _
  rw [emb2 t a b]

theorem emb3 (t : Fin cfg0.N) (a : Fin 1) (b : Fin 16) :
    ((cfg0.win 3).blk t).view.emb (ix2 a b : S1x16.Idx) = (ix2 a b : S1x16.Idx) := by
  obtain ⟨h0, h1⟩ := idx_fix3 t
  funext x
  apply Fin.ext
  match x with
  | ⟨0, _⟩ => show win0_3.index t (0 : Fin 2) * 1 + 1 * a.val = a.val; omega
  | ⟨1, _⟩ => show win0_3.index t (1 : Fin 2) * 16 + 1 * b.val = b.val; omega

theorem read3 (c : Dev nD) (t : Fin cfg0.N) (a : Fin 1) (b : Fin 16) :
    (iblk m c 3 t : Vec Ideal S1x16 .f32) (ix2 a b) = (V m c main_v81 : S1x16.Idx → EReal) (ix2 a b) := by
  show (V m c main_v81 : S1x16.Idx → EReal) (((cfg0.win 3).blk t).view.emb (ix2 a b : S1x16.Idx)) = _
  rw [emb3 t a b]

theorem emb4 (t : Fin cfg0.N) (a : Fin 16) (b : Fin 8) :
    ((cfg0.win 4).blk t).view.emb (ix2 a b : S16x8.Idx) = (ix2 a b : S16x8.Idx) := by
  obtain ⟨h0, h1⟩ := idx_fix4 t
  funext x
  apply Fin.ext
  match x with
  | ⟨0, _⟩ => show win0_4.index t (0 : Fin 2) * 16 + 1 * a.val = a.val; omega
  | ⟨1, _⟩ => show win0_4.index t (1 : Fin 2) * 8 + 1 * b.val = b.val; omega

theorem read4 (c : Dev nD) (t : Fin cfg0.N) (a : Fin 16) (b : Fin 8) :
    (iblk m c 4 t : Vec Ideal S16x8 .f32) (ix2 a b) = (V m c main_arg8 : S16x8.Idx → EReal) (ix2 a b) := by
  show (V m c main_arg8 : S16x8.Idx → EReal) (((cfg0.win 4).blk t).view.emb (ix2 a b : S16x8.Idx)) = _
  rw [emb4 t a b]

theorem emb5 (t : Fin cfg0.N) (a : Fin 1) (b : Fin 8) :
    ((cfg0.win 5).blk t).view.emb (ix2 a b : S1x8.Idx) = (ix2 a b : S1x8.Idx) := by
  obtain ⟨h0, h1⟩ := idx_fix5 t
  funext x
  apply Fin.ext
  match x with
  | ⟨0, _⟩ => show win0_5.index t (0 : Fin 2) * 1 + 1 * a.val = a.val; omega
  | ⟨1, _⟩ => show win0_5.index t (1 : Fin 2) * 8 + 1 * b.val = b.val; omega

theorem read5 (c : Dev nD) (t : Fin cfg0.N) (a : Fin 1) (b : Fin 8) :
    (iblk m c 5 t : Vec Ideal S1x8 .f32) (ix2 a b) = (V m c main_v82 : S1x8.Idx → EReal) (ix2 a b) := by
  show (V m c main_v82 : S1x8.Idx → EReal) (((cfg0.win 5).blk t).view.emb (ix2 a b : S1x8.Idx)) = _
  rw [emb5 t a b]

end Cert.KernelIdeal.BlockB

end
-- ==== Proof.KerBlocksC.lean ====
/-
  The gate's weight and bias blocks are the whole arrays, entry by entry.
-/
import proofs.«178898_j4002909520310_1_alg».proof.Proof.KerGrid

noncomputable section

namespace Cert.KernelIdeal.BlockC

open Cert.KernelIdeal Cert.KernelIdeal.Gen Cert.KernelIdeal.GridValue
open Idealize.ShloMosaic Idealize.ShloMosaic.TcCoe Idealize.SL.Sem Idealize.ShloMosaic.ValueIdx

variable (m : (ℓ : Loc nD τ sig) → Buf (Elt Ideal) ℓ)
theorem emb6 (t : Fin cfg0.N) (a : Fin 16) (b : Fin 16) :
    ((cfg0.win 6).blk t).view.emb (ix2 a b : S16x16.Idx) = (ix2 a b : S16x16.Idx) := by
  obtain ⟨h0, h1⟩ := idx_fix6 t
  funext x
  apply Fin.ext
  match x with
  | ⟨0, _⟩ => show win0_6.index t (0 : Fin 2) * 16 + 1 * a.val = a.val; omega
  | ⟨1, _⟩ => show win0_6.index t (1 : Fin 2) * 16 + 1 * b.val = b.val; omega

theorem read6 (c : Dev nD) (t : Fin cfg0.N) (a : Fin 16) (b : Fin 16) :
    (iblk m c 6 t : Vec Ideal S16x16 .f32) (ix2 a b) = (V m c main_arg10 : S16x16.Idx → EReal) (ix2 a b) := by
  show (V m c main_arg10 : S16x16.Idx → EReal) (((cfg0.win 6).blk t).view.emb (ix2 a b : S16x16.Idx)) = _
  rw [emb6 t a b]

theorem emb7 (t : Fin cfg0.N) (a : Fin 1) (b : Fin 16) :
    ((cfg0.win 7).blk t).view.emb (ix2 a b : S1x16.Idx) = (ix2 a b : S1x16.Idx) := by
  obtain ⟨h0, h1⟩ := idx_fix7 t
  funext x
  apply Fin.ext
  match x with
  | ⟨0, _⟩ => show win0_7.index t (0 : Fin 2) * 1 + 1 * a.val = a.val; omega
  | ⟨1, _⟩ => show win0_7.index t (1 : Fin 2) * 16 + 1 * b.val = b.val; omega

theorem read7 (c : Dev nD) (t : Fin cfg0.N) (a : Fin 1) (b : Fin 16) :
    (iblk m c 7 t : Vec Ideal S1x16 .f32) (ix2 a b) = (V m c main_v83 : S1x16.Idx → EReal) (ix2 a b) := by
  show (V m c main_v83 : S1x16.Idx → EReal) (((cfg0.win 7).blk t).view.emb (ix2 a b : S1x16.Idx)) = _
  rw [emb7 t a b]

theorem emb8 (t : Fin cfg0.N) (a : Fin 16) (b : Fin 2) :
    ((cfg0.win 8).blk t).view.emb (ix2 a b : S16x2.Idx) = (ix2 a b : S16x2.Idx) := by
  obtain ⟨h0, h1⟩ := idx_fix8 t
  funext x
  apply Fin.ext
  match x with
  | ⟨0, _⟩ => show win0_8.index t (0 : Fin 2) * 16 + 1 * a.val = a.val; omega
  | ⟨1, _⟩ => show win0_8.index t (1 : Fin 2) * 2 + 1 * b.val = b.val; omega

theorem read8 (c : Dev nD) (t : Fin cfg0.N) (a : Fin 16) (b : Fin 2) :
    (iblk m c 8 t : Vec Ideal S16x2 .f32) (ix2 a b) = (V m c main_arg12 : S16x2.Idx → EReal) (ix2 a b) := by
  show (V m c main_arg12 : S16x2.Idx → EReal) (((cfg0.win 8).blk t).view.emb (ix2 a b : S16x2.Idx)) = _
  rw [emb8 t a b]

theorem emb9 (t : Fin cfg0.N) (a : Fin 1) (b : Fin 2) :
    ((cfg0.win 9).blk t).view.emb (ix2 a b : S1x2.Idx) = (ix2 a b : S1x2.Idx) := by
  obtain ⟨h0, h1⟩ := idx_fix9 t
  funext x
  apply Fin.ext
  match x with
  | ⟨0, _⟩ => show win0_9.index t (0 : Fin 2) * 1 + 1 * a.val = a.val; omega
  | ⟨1, _⟩ => show win0_9.index t (1 : Fin 2) * 2 + 1 * b.val = b.val; omega

theorem read9 (c : Dev nD) (t : Fin cfg0.N) (a : Fin 1) (b : Fin 2) :
    (iblk m c 9 t : Vec Ideal S1x2 .f32) (ix2 a b) = (V m c main_v84 : S1x2.Idx → EReal) (ix2 a b) := by
  show (V m c main_v84 : S1x2.Idx → EReal) (((cfg0.win 9).blk t).view.emb (ix2 a b : S1x2.Idx)) = _
  rw [emb9 t a b]

end Cert.KernelIdeal.BlockC

end
-- ==== Proof.KerArray.lean ====
/-
  The kernel's result array is the mixture (MoeArray) of the arrays its region finds.

  What point t writes back is, entry by entry, the row function of its blocks' rows (KerRow, KerPoint), a block's
  row p is row 5000 t + p of its array (KerBlocksA, B, C), and the 20 output blocks cover the output array: so the array
  after the run is the mixture at every index.
-/
import proofs.«178898_j4002909520310_1_alg».proof.Proof.KerPoint
import proofs.«178898_j4002909520310_1_alg».proof.Proof.KerBlocksA
import proofs.«178898_j4002909520310_1_alg».proof.Proof.KerBlocksB
import proofs.«178898_j4002909520310_1_alg».proof.Proof.KerBlocksC
import Idealize.ShloMosaic.Lib.Pipeline.Value

noncomputable section

namespace Cert.KernelIdeal.ArrayValue

open Cert.KernelIdeal Cert.KernelIdeal.Gen Cert.KernelIdeal.ValueP Cert.KernelIdeal.GridValue
open Cert.KernelIdeal.BlockA Cert.KernelIdeal.BlockB Cert.KernelIdeal.BlockC Cert.KernelIdeal.PointValue
open Idealize.ShloMosaic Idealize.ShloMosaic.TcCoe Idealize.SL.Sem Idealize.ShloMosaic.ValueIdx Cert.MoeRow
open Idealize.ShloMosaic.Pipeline (Dat)

variable (m : (ℓ : Loc nD τ sig) → Buf (Elt Ideal) ℓ) (ρ : Dev nD → PrngReg)

/-- The mixture of the arrays as the region finds them: features, graph values, weights, and the bias rows. -/
def kernelOut (c : Dev nD) : S100000x8.Idx → EReal :=
  moeOut (V m c main_arg0) (V m c (Pipeline.arrRef spec0 1)) (V m c main_arg6) (rowVec (V m c main_v81)) (V m c main_arg8) (rowVec (V m c main_v82))
    (V m c main_arg10) (rowVec (V m c main_v83)) (V m c main_arg12) (rowVec (V m c main_v84))

theorem hz : (![0, 0] : Fin 2 → Nat) = fun _ => 0 := funext fun a => by fin_cases a <;> rfl

/-- Entry y of the block point t writes back is the mixture at the array index under y. -/
theorem point_eq (c : Dev nD) (t : Fin cfg0.N) (y : S5000x8.Idx) :
    E10 (iblk m c 0 t : Vec Ideal S5000x16 .f32) (iblk m c 6 t : Vec Ideal S16x16 .f32) (iblk m c 7 t : Vec Ideal S1x16 .f32) (iblk m c 8 t : Vec Ideal S16x2 .f32) (iblk m c 9 t : Vec Ideal S1x2 .f32) (iblk m c 1 t : Vec Ideal S5000x8 .f32) (iblk m c 2 t : Vec Ideal S13x16 .f32) (iblk m c 3 t : Vec Ideal S1x16 .f32) (iblk m c 4 t : Vec Ideal S16x8 .f32) (iblk m c 5 t : Vec Ideal S1x8 .f32) y
      = kernelOut m c (((cfg0.win 10).blk t).view.emb y) := by
  obtain ⟨p, q, rfl⟩ : ∃ (p : Fin 5000) (q : Fin 8), y = ix2 p q := ⟨y 0, y 1, eq_ix2 y⟩
  obtain ⟨-, -, -, -, -, e0⟩ := idx_rows t
  have hp : p.val < 5000 := p.isLt
  have hn : win0_10.index t (0 : Fin 2) * 5000 + p.val < 100000 := by omega
  rw [emb10 t p q ⟨win0_10.index t (0 : Fin 2) * 5000 + p.val, hn⟩ rfl]
  exact point_core (iblk m c 0 t : Vec Ideal S5000x16 .f32) (iblk m c 1 t : Vec Ideal S5000x8 .f32) (iblk m c 2 t : Vec Ideal S13x16 .f32) (iblk m c 3 t : Vec Ideal S1x16 .f32) (iblk m c 4 t : Vec Ideal S16x8 .f32) (iblk m c 5 t : Vec Ideal S1x8 .f32) (iblk m c 6 t : Vec Ideal S16x16 .f32) (iblk m c 7 t : Vec Ideal S1x16 .f32) (iblk m c 8 t : Vec Ideal S16x2 .f32) (iblk m c 9 t : Vec Ideal S1x2 .f32)
    (V m c main_arg0 : S100000x16.Idx → EReal) (V m c (Pipeline.arrRef spec0 1) : S100000x8.Idx → EReal) (V m c main_arg6 : S13x16.Idx → EReal) (V m c main_v81 : S1x16.Idx → EReal) (V m c main_arg8 : S16x8.Idx → EReal) (V m c main_v82 : S1x8.Idx → EReal) (V m c main_arg10 : S16x16.Idx → EReal) (V m c main_v83 : S1x16.Idx → EReal) (V m c main_arg12 : S16x2.Idx → EReal) (V m c main_v84 : S1x2.Idx → EReal)
    ⟨win0_10.index t (0 : Fin 2) * 5000 + p.val, hn⟩ p q
    (fun b => read0 m c t p b _ rfl) (fun b => read1 m c t p b _ rfl)
    (fun a b => read2 m c t a b) (fun b => read3 m c t 0 b) (fun a b => read4 m c t a b) (fun b => read5 m c t 0 b)
    (fun a b => read6 m c t a b) (fun b => read7 m c t 0 b) (fun a b => read8 m c t a b) (fun b => read9 m c t 0 b)

/-- What point t writes back is block t of the mixture. -/
theorem flushed_eq (c : Dev nD) (t : Fin cfg0.N) :
    (dats m 0 c).flushed 10 t = ((cfg0.win 10).blk t).view.read (Elt Ideal) (kernelOut m c) := by
  show (cfg0.win 10).cut (grid0.coords t) ((dats m 0 c).after 10 t) = _
  rw [after0_10]
  unfold out0_10
  simp only [View.ld_unit_zero (S := S5000x16) hz, View.ld_unit_zero (S := S5000x8) hz, View.ld_unit_zero (S := S13x16) hz,
    View.ld_unit_zero (S := S1x16) hz, View.ld_unit_zero (S := S16x8) hz, View.ld_unit_zero (S := S1x8) hz,
    View.ld_unit_zero (S := S16x16) hz, View.ld_unit_zero (S := S16x2) hz, View.ld_unit_zero (S := S1x2) hz]
  funext y
  refine (canon10_eq (iblk m c 0 t) (iblk m c 6 t) (iblk m c 7 t) (iblk m c 8 t) (iblk m c 9 t) (iblk m c 1 t) (iblk m c 2 t) (iblk m c 3 t) (iblk m c 4 t) (iblk m c 5 t) y).trans ?_
  exact point_eq m c t y
/-! ## The array after the run -/

/-- An index of the output is in point t's block iff each coordinate is in the block's range on its axis. -/
theorem mem_blk (t : Fin cfg0.N) (i : S100000x8.Idx) :
    i ∈ ((cfg0.win 10).blk t).view.set ↔ ∀ a : Fin 2, win0_10.index t a * S5000x8.size a ≤ (i a).val ∧ (i a).val < win0_10.index t a * S5000x8.size a + S5000x8.size a := by
  show i ∈ ((View.whole main_v85).slice (win0_10.rect t)).set ↔ _
  rw [View.set_slice_whole, Rect.mem_set_unit]
  exact Iff.rfl

/-- Every index of the output lies in the block of the point whose block row is the index's row over 5000. -/
theorem cover (i : S100000x8.Idx) : ∃ t : Fin cfg0.N, (cfg0.win 10).flush t = true ∧ i ∈ ((cfg0.win 10).blk t).view.set := by
  have hi0 : (i 0).val < 100000 := (i 0).isLt
  have hi1 : (i 1).val < 8 := (i 1).isLt
  obtain ⟨t, ht⟩ := idx_onto ⟨(i 0).val / 5000, by omega⟩
  have ht' : win0_10.index t (0 : Fin 2) = (i 0).val / 5000 := ht
  obtain ⟨-, -, -, -, e1, -⟩ := idx_rows t
  refine ⟨t, flush0_10 t, ?_⟩
  rw [mem_blk]
  intro a
  match a with
  | ⟨0, _⟩ => show win0_10.index t (0 : Fin 2) * 5000 ≤ (i 0).val ∧ (i 0).val < win0_10.index t (0 : Fin 2) * 5000 + 5000; omega
  | ⟨1, _⟩ => show win0_10.index t (1 : Fin 2) * 8 ≤ (i 1).val ∧ (i 1).val < win0_10.index t (1 : Fin 2) * 8 + 8; omega

/-- The output array after the run is the mixture. -/
theorem final (c : Dev nD) : (dats m 0 c).arrAt 10 cfg0.N = kernelOut m c :=
  (dats m 0 c).arrAt_eq_of_cover 10 (kernelOut m c) (fun t _ => flushed_eq m c t) cover

end Cert.KernelIdeal.ArrayValue

end
-- ==== Proof.KerHostS0.lean ====
/-
  Stretch 0 of the host operations before the kernel's region: the edge lists with their self-loops, the degrees, and
  the two operands of the `where`, read from the program's arguments; and the arguments it leaves as they were.
  The values are named by the reference's stages (`val_main_…`), which are never opened.
-/
import proofs.«178898_j4002909520310_1_alg».proof.Proof.KernelValueP
import proofs.«178898_j4002909520310_1_alg».proof.Proof.RefReadP
import Idealize.ShloMosaic.Lib.StableHlo.Run

noncomputable section

namespace Cert.KernelIdeal.HostS0

open Cert.KernelIdeal Cert.KernelIdeal.Gen Idealize.ShloMosaic Idealize.ShloMosaic.TcCoe Idealize.SL.Sem Idealize.ShloMosaic.StableHlo
open Cert.ReferenceIdeal.ReadP

/-- Contents of the TensorCore's buffers, at the ideal values. -/
abbrev Vl := Valuation τ sig (Elt Ideal)

variable (m : (ℓ : Loc nD τ sig) → Buf (Elt Ideal) ℓ)

set_option maxHeartbeats 4000000 in
theorem s0_v3 (c : Dev nD) : after hostOps0 (fun b => m (c, b)) (Proc.devRef .tc main_v3) = val_main_v3 (F := Ideal) (m (c, Proc.devRef .tc main_arg1)) := by
  simp only [Gen.hostOps0]
  after_results_simp
  rfl

set_option maxHeartbeats 4000000 in
theorem s0_v6 (c : Dev nD) : after hostOps0 (fun b => m (c, b)) (Proc.devRef .tc main_v6) = val_main_v6 (F := Ideal) (m (c, Proc.devRef .tc main_arg1)) := by
  simp only [Gen.hostOps0]
  after_results_simp
  rfl

set_option maxHeartbeats 4000000 in
theorem s0_v12 (c : Dev nD) : after hostOps0 (fun b => m (c, b)) (Proc.devRef .tc main_v12) = val_main_v12 (F := Ideal) (m (c, Proc.devRef .tc main_arg1)) := by
  simp only [Gen.hostOps0]
  after_results_simp
  rfl

set_option maxHeartbeats 4000000 in
theorem s0_v13 (c : Dev nD) : after hostOps0 (fun b => m (c, b)) (Proc.devRef .tc main_v13) = val_main_v13 (F := Ideal) (m (c, Proc.devRef .tc main_arg1)) := by
  simp only [Gen.hostOps0]
  after_results_simp
  rfl

set_option maxHeartbeats 4000000 in
theorem s0_cst2 (c : Dev nD) : after hostOps0 (fun b => m (c, b)) (Proc.devRef .tc main_cst_2) = val_main_cst_2 (F := Ideal) := by
  simp only [Gen.hostOps0]
  after_results_simp
  rfl
theorem k0_a0 (c : Dev nD) : after hostOps0 (fun b => m (c, b)) (Proc.devRef .tc main_arg0) = (fun b => m (c, b)) (Proc.devRef .tc main_arg0) := by
  simp only [Gen.hostOps0]
  after_results_simp
theorem k0_a2 (c : Dev nD) : after hostOps0 (fun b => m (c, b)) (Proc.devRef .tc main_arg2) = (fun b => m (c, b)) (Proc.devRef .tc main_arg2) := by
  simp only [Gen.hostOps0]
  after_results_simp
theorem k0_a3 (c : Dev nD) : after hostOps0 (fun b => m (c, b)) (Proc.devRef .tc main_arg3) = (fun b => m (c, b)) (Proc.devRef .tc main_arg3) := by
  simp only [Gen.hostOps0]
  after_results_simp
theorem k0_a4 (c : Dev nD) : after hostOps0 (fun b => m (c, b)) (Proc.devRef .tc main_arg4) = (fun b => m (c, b)) (Proc.devRef .tc main_arg4) := by
  simp only [Gen.hostOps0]
  after_results_simp
theorem k0_a5 (c : Dev nD) : after hostOps0 (fun b => m (c, b)) (Proc.devRef .tc main_arg5) = (fun b => m (c, b)) (Proc.devRef .tc main_arg5) := by
  simp only [Gen.hostOps0]
  after_results_simp
theorem k0_a7 (c : Dev nD) : after hostOps0 (fun b => m (c, b)) (Proc.devRef .tc main_arg7) = (fun b => m (c, b)) (Proc.devRef .tc main_arg7) := by
  simp only [Gen.hostOps0]
  after_results_simp
theorem k0_a9 (c : Dev nD) : after hostOps0 (fun b => m (c, b)) (Proc.devRef .tc main_arg9) = (fun b => m (c, b)) (Proc.devRef .tc main_arg9) := by
  simp only [Gen.hostOps0]
  after_results_simp
theorem k0_a11 (c : Dev nD) : after hostOps0 (fun b => m (c, b)) (Proc.devRef .tc main_arg11) = (fun b => m (c, b)) (Proc.devRef .tc main_arg11) := by
  simp only [Gen.hostOps0]
  after_results_simp
theorem k0_a13 (c : Dev nD) : after hostOps0 (fun b => m (c, b)) (Proc.devRef .tc main_arg13) = (fun b => m (c, b)) (Proc.devRef .tc main_arg13) := by
  simp only [Gen.hostOps0]
  after_results_simp

end Cert.KernelIdeal.HostS0

end
-- ==== Proof.KerHostS1.lean ====
/-
  Stretch 1: the `where` — the inverse square root of the degree where it is positive, else 0 — over whatever contents
  it starts from, given the three values it reads; and what it leaves as it was.
  The values are named by the reference's stages (`val_main_…`), which are never opened.
-/
import proofs.«178898_j4002909520310_1_alg».proof.Proof.KernelValueP
import proofs.«178898_j4002909520310_1_alg».proof.Proof.RefReadP
import Idealize.ShloMosaic.Lib.StableHlo.Run

noncomputable section

namespace Cert.KernelIdeal.HostS1

open Cert.KernelIdeal Cert.KernelIdeal.Gen Idealize.ShloMosaic Idealize.ShloMosaic.TcCoe Idealize.SL.Sem Idealize.ShloMosaic.StableHlo
open Cert.ReferenceIdeal.ReadP

/-- Contents of the TensorCore's buffers, at the ideal values. -/
abbrev Vl := Valuation τ sig (Elt Ideal)

set_option maxHeartbeats 4000000 in
theorem s1_v14 (W : Vl) (x1 : (⟨S2x6400000, .i32⟩ : BufTy).Contents (Elt Ideal))
    (h12 : W (Proc.devRef .tc main_v12) = val_main_v12 (F := Ideal) x1) (h13 : W (Proc.devRef .tc main_v13) = val_main_v13 (F := Ideal) x1)
    (hc2 : W (Proc.devRef .tc main_cst_2) = val_main_cst_2 (F := Ideal)) :
    after hostOps0_1 W (Proc.devRef .tc main_v14) = val_main_v14 (F := Ideal) x1 := by
  simp only [Gen.hostOps0_1]
  after_results_simp
  refine Eq.trans (b := select (W (Proc.devRef .tc main_v12)) (W (Proc.devRef .tc main_v13))
    (broadcastInDim S100000 ![] bcast_S_S100000 (W (Proc.devRef .tc main_cst_2)))) rfl ?_
  rw [h12, h13, hc2]
  rfl
theorem k1_a0 (W : Vl) : after hostOps0_1 W (Proc.devRef .tc main_arg0) = W (Proc.devRef .tc main_arg0) := by
  simp only [Gen.hostOps0_1]
  after_results_simp
theorem k1_a2 (W : Vl) : after hostOps0_1 W (Proc.devRef .tc main_arg2) = W (Proc.devRef .tc main_arg2) := by
  simp only [Gen.hostOps0_1]
  after_results_simp
theorem k1_a3 (W : Vl) : after hostOps0_1 W (Proc.devRef .tc main_arg3) = W (Proc.devRef .tc main_arg3) := by
  simp only [Gen.hostOps0_1]
  after_results_simp
theorem k1_a4 (W : Vl) : after hostOps0_1 W (Proc.devRef .tc main_arg4) = W (Proc.devRef .tc main_arg4) := by
  simp only [Gen.hostOps0_1]
  after_results_simp
theorem k1_a5 (W : Vl) : after hostOps0_1 W (Proc.devRef .tc main_arg5) = W (Proc.devRef .tc main_arg5) := by
  simp only [Gen.hostOps0_1]
  after_results_simp
theorem k1_a7 (W : Vl) : after hostOps0_1 W (Proc.devRef .tc main_arg7) = W (Proc.devRef .tc main_arg7) := by
  simp only [Gen.hostOps0_1]
  after_results_simp
theorem k1_a9 (W : Vl) : after hostOps0_1 W (Proc.devRef .tc main_arg9) = W (Proc.devRef .tc main_arg9) := by
  simp only [Gen.hostOps0_1]
  after_results_simp
theorem k1_a11 (W : Vl) : after hostOps0_1 W (Proc.devRef .tc main_arg11) = W (Proc.devRef .tc main_arg11) := by
  simp only [Gen.hostOps0_1]
  after_results_simp
theorem k1_a13 (W : Vl) : after hostOps0_1 W (Proc.devRef .tc main_arg13) = W (Proc.devRef .tc main_arg13) := by
  simp only [Gen.hostOps0_1]
  after_results_simp
theorem k1_v3 (W : Vl) : after hostOps0_1 W (Proc.devRef .tc main_v3) = W (Proc.devRef .tc main_v3) := by
  simp only [Gen.hostOps0_1]
  after_results_simp
theorem k1_v6 (W : Vl) : after hostOps0_1 W (Proc.devRef .tc main_v6) = W (Proc.devRef .tc main_v6) := by
  simp only [Gen.hostOps0_1]
  after_results_simp

end Cert.KernelIdeal.HostS1

end
-- ==== Proof.KerHostS2.lean ====
/-
  Stretch 2: the first graph layer up to its bias, over whatever contents it starts from, given the values it reads;
  and what it leaves as it was.
  The values are named by the reference's stages (`val_main_…`), which are never opened.
-/
import proofs.«178898_j4002909520310_1_alg».proof.Proof.KernelValueP
import proofs.«178898_j4002909520310_1_alg».proof.Proof.RefReadP
import Idealize.ShloMosaic.Lib.StableHlo.Run

noncomputable section

namespace Cert.KernelIdeal.HostS2

open Cert.KernelIdeal Cert.KernelIdeal.Gen Idealize.ShloMosaic Idealize.ShloMosaic.TcCoe Idealize.SL.Sem Idealize.ShloMosaic.StableHlo
open Cert.ReferenceIdeal.ReadP

/-- Contents of the TensorCore's buffers, at the ideal values. -/
abbrev Vl := Valuation τ sig (Elt Ideal)

set_option maxHeartbeats 8000000 in
theorem s2_v47 (W : Vl) (x0 : (⟨S100000x16, .f32⟩ : BufTy).Contents (Elt Ideal)) (x1 : (⟨S2x6400000, .i32⟩ : BufTy).Contents (Elt Ideal)) (x2 : (⟨S3x16, .f32⟩ : BufTy).Contents (Elt Ideal)) (x3 : (⟨S16, .f32⟩ : BufTy).Contents (Elt Ideal))
    (h0 : W (Proc.devRef .tc main_arg0) = x0) (h2 : W (Proc.devRef .tc main_arg2) = x2) (h3 : W (Proc.devRef .tc main_arg3) = x3)
    (hr : W (Proc.devRef .tc main_v3) = val_main_v3 (F := Ideal) x1) (hc : W (Proc.devRef .tc main_v6) = val_main_v6 (F := Ideal) x1)
    (hd : W (Proc.devRef .tc main_v14) = val_main_v14 (F := Ideal) x1) :
    after hostOps0_2 W (Proc.devRef .tc main_v47) = val_main_v47 (F := Ideal) x0 x1 x2 x3 := by
  simp only [Gen.hostOps0_2]
  after_results_simp
  rw [h0, h2, h3, hr, hc, hd]
  rfl
theorem k2_a4 (W : Vl) : after hostOps0_2 W (Proc.devRef .tc main_arg4) = W (Proc.devRef .tc main_arg4) := by
  simp only [Gen.hostOps0_2]
  after_results_simp
theorem k2_a5 (W : Vl) : after hostOps0_2 W (Proc.devRef .tc main_arg5) = W (Proc.devRef .tc main_arg5) := by
  simp only [Gen.hostOps0_2]
  after_results_simp
theorem k2_a7 (W : Vl) : after hostOps0_2 W (Proc.devRef .tc main_arg7) = W (Proc.devRef .tc main_arg7) := by
  simp only [Gen.hostOps0_2]
  after_results_simp
theorem k2_a9 (W : Vl) : after hostOps0_2 W (Proc.devRef .tc main_arg9) = W (Proc.devRef .tc main_arg9) := by
  simp only [Gen.hostOps0_2]
  after_results_simp
theorem k2_a11 (W : Vl) : after hostOps0_2 W (Proc.devRef .tc main_arg11) = W (Proc.devRef .tc main_arg11) := by
  simp only [Gen.hostOps0_2]
  after_results_simp
theorem k2_a13 (W : Vl) : after hostOps0_2 W (Proc.devRef .tc main_arg13) = W (Proc.devRef .tc main_arg13) := by
  simp only [Gen.hostOps0_2]
  after_results_simp
theorem k2_v3 (W : Vl) : after hostOps0_2 W (Proc.devRef .tc main_v3) = W (Proc.devRef .tc main_v3) := by
  simp only [Gen.hostOps0_2]
  after_results_simp
theorem k2_v6 (W : Vl) : after hostOps0_2 W (Proc.devRef .tc main_v6) = W (Proc.devRef .tc main_v6) := by
  simp only [Gen.hostOps0_2]
  after_results_simp
theorem k2_v14 (W : Vl) : after hostOps0_2 W (Proc.devRef .tc main_v14) = W (Proc.devRef .tc main_v14) := by
  simp only [Gen.hostOps0_2]
  after_results_simp

end Cert.KernelIdeal.HostS2

end
-- ==== Proof.KerHostS3.lean ====
/-
  Stretch 3: the `relu` between the two graph layers, over whatever contents it starts from.
  The values are named by the reference's stages (`val_main_…`), which are never opened.
-/
import proofs.«178898_j4002909520310_1_alg».proof.Proof.KernelValueP
import proofs.«178898_j4002909520310_1_alg».proof.Proof.RefReadP
import Idealize.ShloMosaic.Lib.StableHlo.Run

noncomputable section

namespace Cert.KernelIdeal.HostS3

open Cert.KernelIdeal Cert.KernelIdeal.Gen Idealize.ShloMosaic Idealize.ShloMosaic.TcCoe Idealize.SL.Sem Idealize.ShloMosaic.StableHlo
open Cert.ReferenceIdeal.ReadP

/-- Contents of the TensorCore's buffers, at the ideal values. -/
abbrev Vl := Valuation τ sig (Elt Ideal)

set_option maxHeartbeats 4000000 in
theorem s3_v48 (W : Vl) (x0 : (⟨S100000x16, .f32⟩ : BufTy).Contents (Elt Ideal)) (x1 : (⟨S2x6400000, .i32⟩ : BufTy).Contents (Elt Ideal)) (x2 : (⟨S3x16, .f32⟩ : BufTy).Contents (Elt Ideal)) (x3 : (⟨S16, .f32⟩ : BufTy).Contents (Elt Ideal))
    (h47 : W (Proc.devRef .tc main_v47) = val_main_v47 (F := Ideal) x0 x1 x2 x3) :
    after hostOps0_3 W (Proc.devRef .tc main_v48) = val_main_v48 (F := Ideal) x0 x1 x2 x3 := by
  simp only [Gen.hostOps0_3]
  after_results_simp
  refine Eq.trans (b := maximumf (W (Proc.devRef .tc main_v47))
    (broadcastInDim S100000x16 ![] bcast_S_S100000x16 (constant (F := Ideal) S_ .f32 0x00000000#32))) rfl ?_
  rw [h47]
  rfl
theorem k3_a4 (W : Vl) : after hostOps0_3 W (Proc.devRef .tc main_arg4) = W (Proc.devRef .tc main_arg4) := by
  simp only [Gen.hostOps0_3]
  after_results_simp
theorem k3_a5 (W : Vl) : after hostOps0_3 W (Proc.devRef .tc main_arg5) = W (Proc.devRef .tc main_arg5) := by
  simp only [Gen.hostOps0_3]
  after_results_simp
theorem k3_a7 (W : Vl) : after hostOps0_3 W (Proc.devRef .tc main_arg7) = W (Proc.devRef .tc main_arg7) := by
  simp only [Gen.hostOps0_3]
  after_results_simp
theorem k3_a9 (W : Vl) : after hostOps0_3 W (Proc.devRef .tc main_arg9) = W (Proc.devRef .tc main_arg9) := by
  simp only [Gen.hostOps0_3]
  after_results_simp
theorem k3_a11 (W : Vl) : after hostOps0_3 W (Proc.devRef .tc main_arg11) = W (Proc.devRef .tc main_arg11) := by
  simp only [Gen.hostOps0_3]
  after_results_simp
theorem k3_a13 (W : Vl) : after hostOps0_3 W (Proc.devRef .tc main_arg13) = W (Proc.devRef .tc main_arg13) := by
  simp only [Gen.hostOps0_3]
  after_results_simp
theorem k3_v3 (W : Vl) : after hostOps0_3 W (Proc.devRef .tc main_v3) = W (Proc.devRef .tc main_v3) := by
  simp only [Gen.hostOps0_3]
  after_results_simp
theorem k3_v6 (W : Vl) : after hostOps0_3 W (Proc.devRef .tc main_v6) = W (Proc.devRef .tc main_v6) := by
  simp only [Gen.hostOps0_3]
  after_results_simp
theorem k3_v14 (W : Vl) : after hostOps0_3 W (Proc.devRef .tc main_v14) = W (Proc.devRef .tc main_v14) := by
  simp only [Gen.hostOps0_3]
  after_results_simp

end Cert.KernelIdeal.HostS3

end
-- ==== Proof.KerHostS4.lean ====
/-
  Stretch 4: the second graph layer, and the four bias vectors recast as one-row matrices, over whatever contents it
  starts from.
  The values are named by the reference's stages (`val_main_…`), which are never opened.
-/
import proofs.«178898_j4002909520310_1_alg».proof.Proof.KernelValueP
import proofs.«178898_j4002909520310_1_alg».proof.Proof.RefReadP
import Idealize.ShloMosaic.Lib.StableHlo.Run

noncomputable section

namespace Cert.KernelIdeal.HostS4

open Cert.KernelIdeal Cert.KernelIdeal.Gen Idealize.ShloMosaic Idealize.ShloMosaic.TcCoe Idealize.SL.Sem Idealize.ShloMosaic.StableHlo
open Cert.ReferenceIdeal.ReadP

/-- Contents of the TensorCore's buffers, at the ideal values. -/
abbrev Vl := Valuation τ sig (Elt Ideal)

set_option maxHeartbeats 8000000 in
theorem s4_v80 (W : Vl) (x0 : (⟨S100000x16, .f32⟩ : BufTy).Contents (Elt Ideal)) (x1 : (⟨S2x6400000, .i32⟩ : BufTy).Contents (Elt Ideal)) (x2 : (⟨S3x16, .f32⟩ : BufTy).Contents (Elt Ideal)) (x3 : (⟨S16, .f32⟩ : BufTy).Contents (Elt Ideal)) (x4 : (⟨S16x8, .f32⟩ : BufTy).Contents (Elt Ideal)) (x5 : (⟨S8, .f32⟩ : BufTy).Contents (Elt Ideal))
    (h48 : W (Proc.devRef .tc main_v48) = val_main_v48 (F := Ideal) x0 x1 x2 x3) (h4 : W (Proc.devRef .tc main_arg4) = x4) (h5 : W (Proc.devRef .tc main_arg5) = x5)
    (hr : W (Proc.devRef .tc main_v3) = val_main_v3 (F := Ideal) x1) (hc : W (Proc.devRef .tc main_v6) = val_main_v6 (F := Ideal) x1)
    (hd : W (Proc.devRef .tc main_v14) = val_main_v14 (F := Ideal) x1) :
    after hostOps0_4 W (Proc.devRef .tc main_v80) = val_main_v80 (F := Ideal) x0 x1 x2 x3 x4 x5 := by
  simp only [Gen.hostOps0_4]
  after_results_simp
  rw [h48, h4, h5, hr, hc, hd]
  rfl

theorem s4_v81 (W : Vl) (x : (⟨S16, .f32⟩ : BufTy).Contents (Elt Ideal)) (h : W (Proc.devRef .tc main_arg7) = x) :
    after hostOps0_4 W (Proc.devRef .tc main_v81) = shapeCast S1x16 x shapeCasts_S16_S1x16 := by
  simp only [Gen.hostOps0_4]
  after_results_simp
  rw [h]
  rfl

theorem s4_v82 (W : Vl) (x : (⟨S8, .f32⟩ : BufTy).Contents (Elt Ideal)) (h : W (Proc.devRef .tc main_arg9) = x) :
    after hostOps0_4 W (Proc.devRef .tc main_v82) = shapeCast S1x8 x shapeCasts_S8_S1x8 := by
  simp only [Gen.hostOps0_4]
  after_results_simp
  rw [h]
  rfl

theorem s4_v83 (W : Vl) (x : (⟨S16, .f32⟩ : BufTy).Contents (Elt Ideal)) (h : W (Proc.devRef .tc main_arg11) = x) :
    after hostOps0_4 W (Proc.devRef .tc main_v83) = shapeCast S1x16 x shapeCasts_S16_S1x16 := by
  simp only [Gen.hostOps0_4]
  after_results_simp
  rw [h]
  rfl

theorem s4_v84 (W : Vl) (x : (⟨S2, .f32⟩ : BufTy).Contents (Elt Ideal)) (h : W (Proc.devRef .tc main_arg13) = x) :
    after hostOps0_4 W (Proc.devRef .tc main_v84) = shapeCast S1x2 x shapeCasts_S2_S1x2 := by
  simp only [Gen.hostOps0_4]
  after_results_simp
  rw [h]
  rfl

end Cert.KernelIdeal.HostS4

end
-- ==== Proof.KerHost.lean ====
/-
  The arrays the kernel's region finds that host operations wrote before it, as functions of the program's arguments.

  The contents at the region's entry are the five stretches of host operations run one after another from the launch
  contents.  Threading the few live values through the stretches (KerHostS0 … S4) gives: the array the region's second
  window stages is the graph expert's array — the reference's stage `val_main_v80` of the same arguments, the chain of
  operations itself never opened —, and the four bias vectors reach the region recast as one-row matrices.
-/
import proofs.«178898_j4002909520310_1_alg».proof.Proof.KerHostS0
import proofs.«178898_j4002909520310_1_alg».proof.Proof.KerHostS1
import proofs.«178898_j4002909520310_1_alg».proof.Proof.KerHostS2
import proofs.«178898_j4002909520310_1_alg».proof.Proof.KerHostS3
import proofs.«178898_j4002909520310_1_alg».proof.Proof.KerHostS4

noncomputable section

namespace Cert.KernelIdeal.HostValue

open Cert.KernelIdeal Cert.KernelIdeal.Gen Idealize.ShloMosaic Idealize.ShloMosaic.TcCoe Idealize.SL.Sem Idealize.ShloMosaic.StableHlo
open Cert.ReferenceIdeal.ReadP
open Cert.KernelIdeal.HostS0 Cert.KernelIdeal.HostS1 Cert.KernelIdeal.HostS2 Cert.KernelIdeal.HostS3 Cert.KernelIdeal.HostS4

variable (m : (ℓ : Loc nD τ sig) → Buf (Elt Ideal) ℓ) (c : Dev nD)

/-- The contents at the region's entry: the five stretches, one after another, from the launch contents. -/
theorem V_split (b : Ref sig .tc) :
    V m c b = after hostOps0_4 (after hostOps0_3 (after hostOps0_2 (after hostOps0_1 (after hostOps0 (fun b => m (c, b)))))) (Proc.devRef .tc b) := by
  dsimp only [Gen.V]
  simp only [List.flatten_cons, List.flatten_nil, List.append_nil, StableHlo.after_append]

/-! ## After stretch 1 -/
theorem w1_v14 : (after hostOps0_1 (after hostOps0 (fun b => m (c, b)))) (Proc.devRef .tc main_v14) = (val_main_v14 (F := Ideal) (m (c, Proc.devRef .tc main_arg1))) :=
  s1_v14 (after hostOps0 (fun b => m (c, b))) (m (c, Proc.devRef .tc main_arg1)) (s0_v12 m c) (s0_v13 m c) (s0_cst2 m c)
theorem w1_v3 : (after hostOps0_1 (after hostOps0 (fun b => m (c, b)))) (Proc.devRef .tc main_v3) = val_main_v3 (F := Ideal) (m (c, Proc.devRef .tc main_arg1)) := (k1_v3 (after hostOps0 (fun b => m (c, b)))).trans (s0_v3 m c)
theorem w1_v6 : (after hostOps0_1 (after hostOps0 (fun b => m (c, b)))) (Proc.devRef .tc main_v6) = val_main_v6 (F := Ideal) (m (c, Proc.devRef .tc main_arg1)) := (k1_v6 (after hostOps0 (fun b => m (c, b)))).trans (s0_v6 m c)
theorem w1_a0 : (after hostOps0_1 (after hostOps0 (fun b => m (c, b)))) (Proc.devRef .tc main_arg0) = (m (c, Proc.devRef .tc main_arg0)) := (k1_a0 (after hostOps0 (fun b => m (c, b)))).trans (k0_a0 m c)
theorem w1_a2 : (after hostOps0_1 (after hostOps0 (fun b => m (c, b)))) (Proc.devRef .tc main_arg2) = (m (c, Proc.devRef .tc main_arg2)) := (k1_a2 (after hostOps0 (fun b => m (c, b)))).trans (k0_a2 m c)
theorem w1_a3 : (after hostOps0_1 (after hostOps0 (fun b => m (c, b)))) (Proc.devRef .tc main_arg3) = (m (c, Proc.devRef .tc main_arg3)) := (k1_a3 (after hostOps0 (fun b => m (c, b)))).trans (k0_a3 m c)
theorem w1_a4 : (after hostOps0_1 (after hostOps0 (fun b => m (c, b)))) (Proc.devRef .tc main_arg4) = (m (c, Proc.devRef .tc main_arg4)) := (k1_a4 (after hostOps0 (fun b => m (c, b)))).trans (k0_a4 m c)
theorem w1_a5 : (after hostOps0_1 (after hostOps0 (fun b => m (c, b)))) (Proc.devRef .tc main_arg5) = (m (c, Proc.devRef .tc main_arg5)) := (k1_a5 (after hostOps0 (fun b => m (c, b)))).trans (k0_a5 m c)
theorem w1_a7 : (after hostOps0_1 (after hostOps0 (fun b => m (c, b)))) (Proc.devRef .tc main_arg7) = (m (c, Proc.devRef .tc main_arg7)) := (k1_a7 (after hostOps0 (fun b => m (c, b)))).trans (k0_a7 m c)
theorem w1_a9 : (after hostOps0_1 (after hostOps0 (fun b => m (c, b)))) (Proc.devRef .tc main_arg9) = (m (c, Proc.devRef .tc main_arg9)) := (k1_a9 (after hostOps0 (fun b => m (c, b)))).trans (k0_a9 m c)
theorem w1_a11 : (after hostOps0_1 (after hostOps0 (fun b => m (c, b)))) (Proc.devRef .tc main_arg11) = (m (c, Proc.devRef .tc main_arg11)) := (k1_a11 (after hostOps0 (fun b => m (c, b)))).trans (k0_a11 m c)
theorem w1_a13 : (after hostOps0_1 (after hostOps0 (fun b => m (c, b)))) (Proc.devRef .tc main_arg13) = (m (c, Proc.devRef .tc main_arg13)) := (k1_a13 (after hostOps0 (fun b => m (c, b)))).trans (k0_a13 m c)

/-! ## After stretch 2 -/
theorem w2_v47 : (after hostOps0_2 (after hostOps0_1 (after hostOps0 (fun b => m (c, b))))) (Proc.devRef .tc main_v47) = val_main_v47 (F := Ideal) (m (c, Proc.devRef .tc main_arg0)) (m (c, Proc.devRef .tc main_arg1)) (m (c, Proc.devRef .tc main_arg2)) (m (c, Proc.devRef .tc main_arg3)) :=
  s2_v47 (after hostOps0_1 (after hostOps0 (fun b => m (c, b)))) (m (c, Proc.devRef .tc main_arg0)) (m (c, Proc.devRef .tc main_arg1)) (m (c, Proc.devRef .tc main_arg2)) (m (c, Proc.devRef .tc main_arg3)) (w1_a0 m c) (w1_a2 m c) (w1_a3 m c) (w1_v3 m c) (w1_v6 m c) (w1_v14 m c)
theorem w2_v3 : (after hostOps0_2 (after hostOps0_1 (after hostOps0 (fun b => m (c, b))))) (Proc.devRef .tc main_v3) = val_main_v3 (F := Ideal) (m (c, Proc.devRef .tc main_arg1)) := (k2_v3 (after hostOps0_1 (after hostOps0 (fun b => m (c, b))))).trans (w1_v3 m c)
theorem w2_v6 : (after hostOps0_2 (after hostOps0_1 (after hostOps0 (fun b => m (c, b))))) (Proc.devRef .tc main_v6) = val_main_v6 (F := Ideal) (m (c, Proc.devRef .tc main_arg1)) := (k2_v6 (after hostOps0_1 (after hostOps0 (fun b => m (c, b))))).trans (w1_v6 m c)
theorem w2_v14 : (after hostOps0_2 (after hostOps0_1 (after hostOps0 (fun b => m (c, b))))) (Proc.devRef .tc main_v14) = (val_main_v14 (F := Ideal) (m (c, Proc.devRef .tc main_arg1))) := (k2_v14 (after hostOps0_1 (after hostOps0 (fun b => m (c, b))))).trans (w1_v14 m c)
theorem w2_a4 : (after hostOps0_2 (after hostOps0_1 (after hostOps0 (fun b => m (c, b))))) (Proc.devRef .tc main_arg4) = (m (c, Proc.devRef .tc main_arg4)) := (k2_a4 (after hostOps0_1 (after hostOps0 (fun b => m (c, b))))).trans (w1_a4 m c)
theorem w2_a5 : (after hostOps0_2 (after hostOps0_1 (after hostOps0 (fun b => m (c, b))))) (Proc.devRef .tc main_arg5) = (m (c, Proc.devRef .tc main_arg5)) := (k2_a5 (after hostOps0_1 (after hostOps0 (fun b => m (c, b))))).trans (w1_a5 m c)
theorem w2_a7 : (after hostOps0_2 (after hostOps0_1 (after hostOps0 (fun b => m (c, b))))) (Proc.devRef .tc main_arg7) = (m (c, Proc.devRef .tc main_arg7)) := (k2_a7 (after hostOps0_1 (after hostOps0 (fun b => m (c, b))))).trans (w1_a7 m c)
theorem w2_a9 : (after hostOps0_2 (after hostOps0_1 (after hostOps0 (fun b => m (c, b))))) (Proc.devRef .tc main_arg9) = (m (c, Proc.devRef .tc main_arg9)) := (k2_a9 (after hostOps0_1 (after hostOps0 (fun b => m (c, b))))).trans (w1_a9 m c)
theorem w2_a11 : (after hostOps0_2 (after hostOps0_1 (after hostOps0 (fun b => m (c, b))))) (Proc.devRef .tc main_arg11) = (m (c, Proc.devRef .tc main_arg11)) := (k2_a11 (after hostOps0_1 (after hostOps0 (fun b => m (c, b))))).trans (w1_a11 m c)
theorem w2_a13 : (after hostOps0_2 (after hostOps0_1 (after hostOps0 (fun b => m (c, b))))) (Proc.devRef .tc main_arg13) = (m (c, Proc.devRef .tc main_arg13)) := (k2_a13 (after hostOps0_1 (after hostOps0 (fun b => m (c, b))))).trans (w1_a13 m c)

/-! ## After stretch 3 -/
theorem w3_v48 : (after hostOps0_3 (after hostOps0_2 (after hostOps0_1 (after hostOps0 (fun b => m (c, b)))))) (Proc.devRef .tc main_v48) = val_main_v48 (F := Ideal) (m (c, Proc.devRef .tc main_arg0)) (m (c, Proc.devRef .tc main_arg1)) (m (c, Proc.devRef .tc main_arg2)) (m (c, Proc.devRef .tc main_arg3)) :=
  s3_v48 (after hostOps0_2 (after hostOps0_1 (after hostOps0 (fun b => m (c, b))))) (m (c, Proc.devRef .tc main_arg0)) (m (c, Proc.devRef .tc main_arg1)) (m (c, Proc.devRef .tc main_arg2)) (m (c, Proc.devRef .tc main_arg3)) (w2_v47 m c)
theorem w3_v3 : (after hostOps0_3 (after hostOps0_2 (after hostOps0_1 (after hostOps0 (fun b => m (c, b)))))) (Proc.devRef .tc main_v3) = val_main_v3 (F := Ideal) (m (c, Proc.devRef .tc main_arg1)) := (k3_v3 (after hostOps0_2 (after hostOps0_1 (after hostOps0 (fun b => m (c, b)))))).trans (w2_v3 m c)
theorem w3_v6 : (after hostOps0_3 (after hostOps0_2 (after hostOps0_1 (after hostOps0 (fun b => m (c, b)))))) (Proc.devRef .tc main_v6) = val_main_v6 (F := Ideal) (m (c, Proc.devRef .tc main_arg1)) := (k3_v6 (after hostOps0_2 (after hostOps0_1 (after hostOps0 (fun b => m (c, b)))))).trans (w2_v6 m c)
theorem w3_v14 : (after hostOps0_3 (after hostOps0_2 (after hostOps0_1 (after hostOps0 (fun b => m (c, b)))))) (Proc.devRef .tc main_v14) = (val_main_v14 (F := Ideal) (m (c, Proc.devRef .tc main_arg1))) := (k3_v14 (after hostOps0_2 (after hostOps0_1 (after hostOps0 (fun b => m (c, b)))))).trans (w2_v14 m c)
theorem w3_a4 : (after hostOps0_3 (after hostOps0_2 (after hostOps0_1 (after hostOps0 (fun b => m (c, b)))))) (Proc.devRef .tc main_arg4) = (m (c, Proc.devRef .tc main_arg4)) := (k3_a4 (after hostOps0_2 (after hostOps0_1 (after hostOps0 (fun b => m (c, b)))))).trans (w2_a4 m c)
theorem w3_a5 : (after hostOps0_3 (after hostOps0_2 (after hostOps0_1 (after hostOps0 (fun b => m (c, b)))))) (Proc.devRef .tc main_arg5) = (m (c, Proc.devRef .tc main_arg5)) := (k3_a5 (after hostOps0_2 (after hostOps0_1 (after hostOps0 (fun b => m (c, b)))))).trans (w2_a5 m c)
theorem w3_a7 : (after hostOps0_3 (after hostOps0_2 (after hostOps0_1 (after hostOps0 (fun b => m (c, b)))))) (Proc.devRef .tc main_arg7) = (m (c, Proc.devRef .tc main_arg7)) := (k3_a7 (after hostOps0_2 (after hostOps0_1 (after hostOps0 (fun b => m (c, b)))))).trans (w2_a7 m c)
theorem w3_a9 : (after hostOps0_3 (after hostOps0_2 (after hostOps0_1 (after hostOps0 (fun b => m (c, b)))))) (Proc.devRef .tc main_arg9) = (m (c, Proc.devRef .tc main_arg9)) := (k3_a9 (after hostOps0_2 (after hostOps0_1 (after hostOps0 (fun b => m (c, b)))))).trans (w2_a9 m c)
theorem w3_a11 : (after hostOps0_3 (after hostOps0_2 (after hostOps0_1 (after hostOps0 (fun b => m (c, b)))))) (Proc.devRef .tc main_arg11) = (m (c, Proc.devRef .tc main_arg11)) := (k3_a11 (after hostOps0_2 (after hostOps0_1 (after hostOps0 (fun b => m (c, b)))))).trans (w2_a11 m c)
theorem w3_a13 : (after hostOps0_3 (after hostOps0_2 (after hostOps0_1 (after hostOps0 (fun b => m (c, b)))))) (Proc.devRef .tc main_arg13) = (m (c, Proc.devRef .tc main_arg13)) := (k3_a13 (after hostOps0_2 (after hostOps0_1 (after hostOps0 (fun b => m (c, b)))))).trans (w2_a13 m c)

/-! ## At the region's entry -/

/-- The array the region's second window stages is the graph expert's array: the reference's stage of the same
    arguments. -/
theorem graph_eq :
    V m c (Pipeline.arrRef spec0 1) = val_main_v80 (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) :=
  (V_split m c (Pipeline.arrRef spec0 1)).trans
    (s4_v80 (after hostOps0_3 (after hostOps0_2 (after hostOps0_1 (after hostOps0 (fun b => m (c, b)))))) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (w3_v48 m c) (w3_a4 m c) (w3_a5 m c) (w3_v3 m c) (w3_v6 m c) (w3_v14 m c))

/-- The bias vector `main_arg7` reaches the region as a one-row matrix. -/
theorem bias_v81 : V m c main_v81 = shapeCast S1x16 (m (c, Proc.devRef .tc main_arg7)) shapeCasts_S16_S1x16 :=
  (V_split m c main_v81).trans (s4_v81 (after hostOps0_3 (after hostOps0_2 (after hostOps0_1 (after hostOps0 (fun b => m (c, b)))))) (m (c, Proc.devRef .tc main_arg7)) (w3_a7 m c))

/-- The bias vector `main_arg9` reaches the region as a one-row matrix. -/
theorem bias_v82 : V m c main_v82 = shapeCast S1x8 (m (c, Proc.devRef .tc main_arg9)) shapeCasts_S8_S1x8 :=
  (V_split m c main_v82).trans (s4_v82 (after hostOps0_3 (after hostOps0_2 (after hostOps0_1 (after hostOps0 (fun b => m (c, b)))))) (m (c, Proc.devRef .tc main_arg9)) (w3_a9 m c))

/-- The bias vector `main_arg11` reaches the region as a one-row matrix. -/
theorem bias_v83 : V m c main_v83 = shapeCast S1x16 (m (c, Proc.devRef .tc main_arg11)) shapeCasts_S16_S1x16 :=
  (V_split m c main_v83).trans (s4_v83 (after hostOps0_3 (after hostOps0_2 (after hostOps0_1 (after hostOps0 (fun b => m (c, b)))))) (m (c, Proc.devRef .tc main_arg11)) (w3_a11 m c))

/-- The bias vector `main_arg13` reaches the region as a one-row matrix. -/
theorem bias_v84 : V m c main_v84 = shapeCast S1x2 (m (c, Proc.devRef .tc main_arg13)) shapeCasts_S2_S1x2 :=
  (V_split m c main_v84).trans (s4_v84 (after hostOps0_3 (after hostOps0_2 (after hostOps0_1 (after hostOps0 (fun b => m (c, b)))))) (m (c, Proc.devRef .tc main_arg13)) (w3_a13 m c))

end Cert.KernelIdeal.HostValue

end
-- ==== Proof.RefRow.lean ====
/-
  The reference's result, entry by entry, is the mixture of MoeArray.

  The reference computes on whole arrays; read at entry (n, q) each of its stages depends only on node n's row.
  The two perceptrons are matrix products read as sums over the contracted axis, with the bias row broadcast
  down the nodes; the softmax is taken along the two logits of a row, its maximum by a reduction from -∞ followed
  by one more maximum with -∞ (which changes nothing), its normaliser by a sum from 0.  The graph expert's array
  enters only through its entry (n, q) and is never opened here.
-/
import proofs.«178898_j4002909520310_1_alg».proof.Proof.RefReadP
import proofs.«178898_j4002909520310_1_alg».proof.Proof.MoeArray

noncomputable section

namespace Cert.ReferenceIdeal.RowValue

open Cert.ReferenceIdeal Cert.ReferenceIdeal.Gen Cert.ReferenceIdeal.ReadP Idealize.ShloMosaic Idealize.ShloMosaic.ValueIdx Cert.MoeRow

/-- A float array of the reference, at the ideal values. -/
abbrev Arr (S : Shape) := (⟨S, .f32⟩ : BufTy).Contents (Elt Ideal)

local macro "idx2" : tactic => `(tactic| exact funext fun a => Fin.ext (by match a with | ⟨0, _⟩ => rfl | ⟨1, _⟩ => rfl))
local macro "idx1" : tactic => `(tactic| exact funext fun a => Fin.ext (by match a with | ⟨0, _⟩ => rfl))

/-! ## Where each stage reads its operands, by coordinates -/

variable (x0 : Arr S100000x16) (x1 : (⟨S2x6400000, .i32⟩ : BufTy).Contents (Elt Ideal)) (x2 : Arr S3x16) (x3 : Arr S16) (x4 : Arr S16x8) (x5 : Arr S8)
  (x6 : Arr S13x16) (x7 : Arr S16) (x8 : Arr S16x8) (x9 : Arr S8) (x10 : Arr S16x16) (x11 : Arr S16) (x12 : Arr S16x2) (x13 : Arr S2)

/-! ## The context expert -/

theorem e_l82 (n : Fin 100000) (k : Fin 16) (c : Fin 13) : lidx_main_v82 (ix2 n k) c = ix2 n c := by idx2
theorem e_r82 (n : Fin 100000) (k : Fin 16) (c : Fin 13) : ridx_main_v82 (ix2 n k) c = ix2 c k := by idx2
theorem e_84 (n : Fin 100000) (k : Fin 16) : idx_main_v84 (ix2 n k) = ix2 (0 : Fin 1) k := by idx2
theorem e_83 (k : Fin 16) : idx_main_v83 (ix2 (0 : Fin 1) k) = ix1 k := by idx1
theorem e_l87 (n : Fin 100000) (q : Fin 8) (k : Fin 16) : lidx_main_v87 (ix2 n q) k = ix2 n k := by idx2
theorem e_r87 (n : Fin 100000) (q : Fin 8) (k : Fin 16) : ridx_main_v87 (ix2 n q) k = ix2 k q := by idx2
theorem e_89 (n : Fin 100000) (q : Fin 8) : idx_main_v89 (ix2 n q) = ix2 (0 : Fin 1) q := by idx2
theorem e_88 (q : Fin 8) : idx_main_v88 (ix2 (0 : Fin 1) q) = ix1 q := by idx1

theorem e_81 (n : Fin 100000) (c : Fin 13) : idx_main_v81 (ix2 n c) = ix2 n (⟨3 + c.val, by have := c.isLt; omega⟩ : Fin 16) := by idx2

/-- The cut of the last 13 features at (n, c). -/
theorem xc_at (n : Fin 100000) (c : Fin 13) : val_main_v81 (F := Ideal) x0 (ix2 n c) = tail13 (fun c' => x0 (ix2 n c')) c := by
  rw [val_main_v81_apply, e_81]
  rfl

/-- The first layer's product at (n, k): node n's input row against column k of the weights. -/
theorem dot82_at (n : Fin 100000) (k : Fin 16) :
    val_main_v82 (F := Ideal) x0 x6 (ix2 n k) = lin (tail13 fun c => x0 (ix2 n c)) (fun c h => x6 (ix2 c h)) k := by
  rw [val_main_v82_apply]
  unfold lin
  refine Finset.sum_congr rfl fun c _ => ?_
  rw [e_l82, e_r82, xc_at]

/-- The first bias, broadcast down the nodes, at (n, k). -/
theorem bias84_at (n : Fin 100000) (k : Fin 16) : val_main_v84 (F := Ideal) x7 (ix2 n k) = x7 (ix1 k) := by
  rw [val_main_v84_apply, e_84, val_main_v83_apply, e_83]

/-- The hidden layer at (n, k). -/
theorem hid86_at (n : Fin 100000) (k : Fin 16) :
    val_main_v86 (F := Ideal) x0 x6 x7 (ix2 n k) = hid (tail13 fun c => x0 (ix2 n c)) (fun c h => x6 (ix2 c h)) (fun h => x7 (ix1 h)) k := by
  rw [val_main_v86_apply, val_main_v85_apply, dot82_at, bias84_at, val_main_call2_v0_apply, val_main_call2_cst_apply]
  rfl

/-- The second layer's product at (n, q). -/
theorem dot87_at (n : Fin 100000) (q : Fin 8) :
    val_main_v87 (F := Ideal) x0 x6 x7 x8 (ix2 n q)
      = lin (hid (tail13 fun c => x0 (ix2 n c)) (fun c h => x6 (ix2 c h)) (fun h => x7 (ix1 h))) (fun k q' => x8 (ix2 k q')) q := by
  rw [val_main_v87_apply]
  unfold lin
  refine Finset.sum_congr rfl fun k _ => ?_
  rw [e_l87, e_r87, hid86_at]

/-- The second bias at (n, q). -/
theorem bias89_at (n : Fin 100000) (q : Fin 8) : val_main_v89 (F := Ideal) x9 (ix2 n q) = x9 (ix1 q) := by
  rw [val_main_v89_apply, e_89, val_main_v88_apply, e_88]

/-- The context expert's value at (n, q). -/
theorem ctx_at (n : Fin 100000) (q : Fin 8) :
    val_main_v90 (F := Ideal) x0 x6 x7 x8 x9 (ix2 n q)
      = mlp (tail13 fun c => x0 (ix2 n c)) (fun c h => x6 (ix2 c h)) (fun h => x7 (ix1 h)) (fun k q' => x8 (ix2 k q')) (fun q' => x9 (ix1 q')) q := by
  rw [val_main_v90_apply, dot87_at, bias89_at]
  rfl

/-! ## The gate's logits -/

theorem e_l91 (n : Fin 100000) (k : Fin 16) (c : Fin 16) : lidx_main_v91 (ix2 n k) c = ix2 n c := by idx2
theorem e_r91 (n : Fin 100000) (k : Fin 16) (c : Fin 16) : ridx_main_v91 (ix2 n k) c = ix2 c k := by idx2
theorem e_93 (n : Fin 100000) (k : Fin 16) : idx_main_v93 (ix2 n k) = ix2 (0 : Fin 1) k := by idx2
theorem e_92 (k : Fin 16) : idx_main_v92 (ix2 (0 : Fin 1) k) = ix1 k := by idx1
theorem e_l96 (n : Fin 100000) (q : Fin 2) (k : Fin 16) : lidx_main_v96 (ix2 n q) k = ix2 n k := by idx2
theorem e_r96 (n : Fin 100000) (q : Fin 2) (k : Fin 16) : ridx_main_v96 (ix2 n q) k = ix2 k q := by idx2
theorem e_98 (n : Fin 100000) (q : Fin 2) : idx_main_v98 (ix2 n q) = ix2 (0 : Fin 1) q := by idx2
theorem e_97 (q : Fin 2) : idx_main_v97 (ix2 (0 : Fin 1) q) = ix1 q := by idx1

/-- The first layer's product at (n, k): node n's input row against column k of the weights. -/
theorem dot91_at (n : Fin 100000) (k : Fin 16) :
    val_main_v91 (F := Ideal) x0 x10 (ix2 n k) = lin (fun c => x0 (ix2 n c)) (fun c h => x10 (ix2 c h)) k := by
  rw [val_main_v91_apply]
  unfold lin
  refine Finset.sum_congr rfl fun c _ => ?_
  rw [e_l91, e_r91]

/-- The first bias, broadcast down the nodes, at (n, k). -/
theorem bias93_at (n : Fin 100000) (k : Fin 16) : val_main_v93 (F := Ideal) x11 (ix2 n k) = x11 (ix1 k) := by
  rw [val_main_v93_apply, e_93, val_main_v92_apply, e_92]

/-- The hidden layer at (n, k). -/
theorem hid95_at (n : Fin 100000) (k : Fin 16) :
    val_main_v95 (F := Ideal) x0 x10 x11 (ix2 n k) = hid (fun c => x0 (ix2 n c)) (fun c h => x10 (ix2 c h)) (fun h => x11 (ix1 h)) k := by
  rw [val_main_v95_apply, val_main_v94_apply, dot91_at, bias93_at, val_main_call3_v0_apply, val_main_call3_cst_apply]
  rfl

/-- The second layer's product at (n, q). -/
theorem dot96_at (n : Fin 100000) (q : Fin 2) :
    val_main_v96 (F := Ideal) x0 x10 x11 x12 (ix2 n q)
      = lin (hid (fun c => x0 (ix2 n c)) (fun c h => x10 (ix2 c h)) (fun h => x11 (ix1 h))) (fun k q' => x12 (ix2 k q')) q := by
  rw [val_main_v96_apply]
  unfold lin
  refine Finset.sum_congr rfl fun k _ => ?_
  rw [e_l96, e_r96, hid95_at]

/-- The second bias at (n, q). -/
theorem bias98_at (n : Fin 100000) (q : Fin 2) : val_main_v98 (F := Ideal) x13 (ix2 n q) = x13 (ix1 q) := by
  rw [val_main_v98_apply, e_98, val_main_v97_apply, e_97]

/-- The gate's logit l of node n. -/
theorem logit_at (n : Fin 100000) (q : Fin 2) :
    val_main_v99 (F := Ideal) x0 x10 x11 x12 x13 (ix2 n q)
      = mlp (fun c => x0 (ix2 n c)) (fun c h => x10 (ix2 c h)) (fun h => x11 (ix1 h)) (fun k q' => x12 (ix2 k q')) (fun q' => x13 (ix1 q')) q := by
  rw [val_main_v99_apply, dot96_at, bias98_at]
  rfl

/-! ## The softmax along a row's two logits -/

theorem e_104 (n : Fin 100000) (l : Fin 2) : idx_main_v104 (ix2 n l) = ix2 n (0 : Fin 1) := by idx2
theorem e_103 (n : Fin 100000) : idx_main_v103 (ix2 n (0 : Fin 1)) = ix1 n := by idx1
theorem e_107 (n : Fin 100000) (k : Fin 2) : idx_main_v107 (ix1 n) k = ix2 n k := by idx2
theorem e_109 (n : Fin 100000) (l : Fin 2) : idx_main_v109 (ix2 n l) = ix2 n (0 : Fin 1) := by idx2
theorem e_108 (n : Fin 100000) : idx_main_v108 (ix2 n (0 : Fin 1)) = ix1 n := by idx1

/-- The logit axis of the [100000, 2] array is one axis to reduce over. -/
theorem reduces_logits : S100000x2.Reduces [1] S100000 := by decide

/-- The reduction over the logit axis, from -∞: the fold of `max` over node n's two logits. -/
theorem max100_at (n : Fin 100000) : val_main_v100 (F := Ideal) x0 x10 x11 x12 x13 (ix1 n) = rowMax (mlp (fun c => x0 (ix2 n c)) (fun c h => x10 (ix2 c h)) (fun h => x11 (ix1 h)) (fun k q' => x12 (ix2 k q')) (fun q' => x13 (ix1 q'))) := by
  unfold val_main_v100
  refine (Host.reduce_eq_fold_single (FloatOps.maximumf (F := Ideal) (φ := .f32)) (val_main_v99 (F := Ideal) x0 x10 x11 x12 x13)
    (val_main_cst_16 (F := Ideal)) reducesTo_S100000x2_S100000_d1 reduces_logits h_S_ (ix1 n)).trans ?_
  have hf : (val_main_v99 (F := Ideal) x0 x10 x11 x12 x13 ∘ reduces_logits.lift (ix1 n)) = mlp (fun c => x0 (ix2 n c)) (fun c h => x10 (ix2 c h)) (fun h => x11 (ix1 h)) (fun k q' => x12 (ix2 k q')) (fun q' => x13 (ix1 q')) :=
    funext fun l => by
      show val_main_v99 (F := Ideal) x0 x10 x11 x12 x13 (reduces_logits.lift (ix1 n) l) = _
      rw [← logit_at x0 x10 x11 x12 x13 n l]
      exact congrArg _ (funext fun a => Fin.ext (by match a with | ⟨0, _⟩ => rfl | ⟨1, _⟩ => rfl))
  rw [hf]
  rfl

/-- One more maximum with -∞ leaves the row's maximum as it is. -/
theorem max102_at (n : Fin 100000) : val_main_v102 (F := Ideal) x0 x10 x11 x12 x13 (ix1 n) = rowMax (mlp (fun c => x0 (ix2 n c)) (fun c h => x10 (ix2 c h)) (fun h => x11 (ix1 h)) (fun k q' => x12 (ix2 k q')) (fun q' => x13 (ix1 q'))) := by
  rw [val_main_v102_apply, val_main_v101_apply, val_main_cst_17_apply, max100_at]
  exact max_ninf32_left _

/-- A shifted exponential at (n, l). -/
theorem exp106_at (n : Fin 100000) (l : Fin 2) : val_main_v106 (F := Ideal) x0 x10 x11 x12 x13 (ix2 n l) = expShift (mlp (fun c => x0 (ix2 n c)) (fun c h => x10 (ix2 c h)) (fun h => x11 (ix1 h)) (fun k q' => x12 (ix2 k q')) (fun q' => x13 (ix1 q'))) l := by
  rw [val_main_v106_apply, val_main_v105_apply, val_main_v104_apply, e_104, val_main_v103_apply, e_103, max102_at, logit_at]
  rfl

/-- The normaliser of node n: the sum of its two shifted exponentials (the sum starts from 0). -/
theorem sum107_at (n : Fin 100000) : val_main_v107 (F := Ideal) x0 x10 x11 x12 x13 (ix1 n) = ∑ k : Fin 2, expShift (mlp (fun c => x0 (ix2 n c)) (fun c h => x10 (ix2 c h)) (fun h => x11 (ix1 h)) (fun k q' => x12 (ix2 k q')) (fun q' => x13 (ix1 q'))) k := by
  rw [val_main_v107_apply]
  show Ideal.ofBits .f32 0x00000000#32 + _ = _
  rw [Ideal.ofBits_zero_f32, zero_add]
  refine Finset.sum_congr rfl fun k _ => ?_
  rw [e_107, exp106_at]

/-- The gate's weight l of node n. -/
theorem gate110_at (n : Fin 100000) (l : Fin 2) : val_main_v110 (F := Ideal) x0 x10 x11 x12 x13 (ix2 n l) = gate (mlp (fun c => x0 (ix2 n c)) (fun c h => x10 (ix2 c h)) (fun h => x11 (ix1 h)) (fun k q' => x12 (ix2 k q')) (fun q' => x13 (ix1 q'))) l := by
  rw [val_main_v110_apply, exp106_at, val_main_v109_apply, e_109, val_main_v108_apply, e_108, sum107_at]
  rfl

/-! ## The mixture -/

theorem e_112 (n : Fin 100000) (q : Fin 8) : idx_main_v112 (ix2 n q) = ix2 n (0 : Fin 1) := by idx2
theorem e_111 (n : Fin 100000) : idx_main_v111 (ix2 n (0 : Fin 1)) = ix2 n (0 : Fin 2) := by idx2
theorem e_115 (n : Fin 100000) (q : Fin 8) : idx_main_v115 (ix2 n q) = ix2 n (0 : Fin 1) := by idx2
theorem e_114 (n : Fin 100000) : idx_main_v114 (ix2 n (0 : Fin 1)) = ix2 n (1 : Fin 2) := by idx2

/-- The reference's result at (n, q): node n's output at column q, with the graph expert's array read at (n, ·). -/
theorem out_at (n : Fin 100000) (q : Fin 8) :
    val_main_v117 (F := Ideal) x0 x1 x2 x3 x4 x5 x6 x7 x8 x9 x10 x11 x12 x13 (ix2 n q)
      = outRow (fun c => x0 (ix2 n c)) (fun q' => val_main_v80 (F := Ideal) x0 x1 x2 x3 x4 x5 (ix2 n q'))
          (fun c h => x6 (ix2 c h)) (fun h => x7 (ix1 h)) (fun k q' => x8 (ix2 k q')) (fun q' => x9 (ix1 q'))
          (fun c h => x10 (ix2 c h)) (fun h => x11 (ix1 h)) (fun k q' => x12 (ix2 k q')) (fun q' => x13 (ix1 q')) q := by
  rw [val_main_v117_apply, val_main_v113_apply, val_main_v116_apply, val_main_v112_apply, e_112, val_main_v111_apply, e_111,
    gate110_at, val_main_v115_apply, e_115, val_main_v114_apply, e_114, gate110_at, ctx_at]
  rfl

/-- The reference's result array is the mixture of its arguments and of the graph expert's array. -/
theorem result_eq :
    val_main_v117 (F := Ideal) x0 x1 x2 x3 x4 x5 x6 x7 x8 x9 x10 x11 x12 x13
      = moeOut x0 (val_main_v80 (F := Ideal) x0 x1 x2 x3 x4 x5) x6 x7 x8 x9 x10 x11 x12 x13 := by
  funext i
  rw [eq_ix2_rowOf_colOf i, out_at]
  rfl

end Cert.ReferenceIdeal.RowValue

end
-- ==== Proof.MoeGlue.lean ====
/-
  Two small facts used to join the two programs: the mixture of equal arrays is the same mixture, and a vector
  recast as a one-row matrix reads back, as a row, as the vector.
-/
import Idealize.ShloMosaic.Lib.ValueLayout
import proofs.«178898_j4002909520310_1_alg».proof.Proof.MoeArray

noncomputable section

namespace Cert.MoeRow

open Idealize.ShloMosaic Idealize.ShloMosaic.ValueIdx

/-- The mixture depends only on its ten arrays. -/
theorem moeOut_congr {x x' : (⟨2, ![100000, 16]⟩ : Shape).Idx → EReal} {g g' : (⟨2, ![100000, 8]⟩ : Shape).Idx → EReal}
    {cW1 cW1' : (⟨2, ![13, 16]⟩ : Shape).Idx → EReal} {cb1 cb1' : (⟨1, ![16]⟩ : Shape).Idx → EReal}
    {cW2 cW2' : (⟨2, ![16, 8]⟩ : Shape).Idx → EReal} {cb2 cb2' : (⟨1, ![8]⟩ : Shape).Idx → EReal}
    {mW1 mW1' : (⟨2, ![16, 16]⟩ : Shape).Idx → EReal} {mb1 mb1' : (⟨1, ![16]⟩ : Shape).Idx → EReal}
    {mW2 mW2' : (⟨2, ![16, 2]⟩ : Shape).Idx → EReal} {mb2 mb2' : (⟨1, ![2]⟩ : Shape).Idx → EReal}
    (h0 : x = x') (h1 : g = g') (h2 : cW1 = cW1') (h3 : cb1 = cb1') (h4 : cW2 = cW2') (h5 : cb2 = cb2')
    (h6 : mW1 = mW1') (h7 : mb1 = mb1') (h8 : mW2 = mW2') (h9 : mb2 = mb2') :
    moeOut x g cW1 cb1 cW2 cb2 mW1 mb1 mW2 mb2 = moeOut x' g' cW1' cb1' cW2' cb2' mW1' mb1' mW2' mb2' := by
  subst h0 h1 h2 h3 h4 h5 h6 h7 h8 h9
  rfl

/-- A vector cast to a one-row matrix, read as its row, is the vector. -/
theorem rowVec_shapeCast {n : ℕ} (v : (⟨1, ![n]⟩ : Shape).Idx → EReal) (h : (⟨1, ![n]⟩ : Shape).ShapeCasts ⟨2, ![1, n]⟩) :
    rowVec (shapeCast ⟨2, ![1, n]⟩ v h) = v := by
  funext i
  show shapeCast ⟨2, ![1, n]⟩ v h (ix2 (0 : Fin 1) (⟨(i 0).val, (i 0).isLt⟩ : Fin n)) = v i
  rw [shapeCast_a_1a_apply]
  exact congrArg v (funext fun a => Fin.ext (by match a with | ⟨0, _⟩ => rfl))

end Cert.MoeRow

end
-- ==== Proof.lean ====
/-
  The certificate: a gated mixture of a graph expert and a context expert over 100000 nodes.

  Both programs compute, for node n with features x[n, :] and graph-expert values g[n, :],

      out[n, q] = p₀ · g[n, q] + p₁ · c[n, q],    c = relu (x[n, 3:] · cW1 + cb1) · cW2 + cb2,
      p = softmax (relu (x[n, :] · mW1 + mb1) · mW2 + mb2)

  (MoeRow, MoeArray).  The graph expert g — two graph-convolution layers over 6.5 million edges — is computed by
  the SAME host operations in both programs, from the same arguments; it enters only as one array and is never
  opened (KerHost carries it as the reference's own stage of the arguments).  The kernel computes the rest block by
  block: 20 grid points of 5000 nodes, each with four block products into zero, bias rows broadcast down the block,
  and a softmax along the two logits of a row (KerRow, KerPoint, KerBlocks, KerArray); the reference computes it on
  whole arrays (RefRow).  At the ideal values the two agree entry by entry: a block product into zero is the plain
  sum over the shared axis, narrowing to bf16 is the identity, a reduction from -∞ is a fold of max and the
  reference's one more maximum with -∞ changes nothing, a reduction from 0 is a finite sum.  No step uses that the
  inputs are finite.

  The frames of the two kernel programs are the generated ones; the reference's frame is its run with the result
  dropped.  The ideal pass rewrote nothing, so what it preserves is trivial.
-/
import proofs.«178898_j4002909520310_1_alg».proof.Defs
import proofs.«178898_j4002909520310_1_alg».proof.Proof.Gen.Kernel
import proofs.«178898_j4002909520310_1_alg».proof.Proof.Gen.Kernel.Skeleton
import proofs.«178898_j4002909520310_1_alg».proof.Proof.Gen.Kernel.Launch
import proofs.«178898_j4002909520310_1_alg».proof.Proof.Gen.Kernel.Points
import proofs.«178898_j4002909520310_1_alg».proof.Proof.Gen.Kernel.Frame
import proofs.«178898_j4002909520310_1_alg».proof.Proof.Gen.KernelIdeal
import proofs.«178898_j4002909520310_1_alg».proof.Proof.Gen.KernelIdeal.Skeleton
import proofs.«178898_j4002909520310_1_alg».proof.Proof.Gen.KernelIdeal.Launch
import proofs.«178898_j4002909520310_1_alg».proof.Proof.Gen.KernelIdeal.Points
import proofs.«178898_j4002909520310_1_alg».proof.Proof.Gen.KernelIdeal.Frame
import proofs.«178898_j4002909520310_1_alg».proof.Proof.Gen.ReferenceIdeal
import proofs.«178898_j4002909520310_1_alg».proof.Proof.Gen.Pre_finite_inputs
import proofs.«178898_j4002909520310_1_alg».proof.Proof.KernelValueP
import proofs.«178898_j4002909520310_1_alg».proof.Proof.RefRunP
import proofs.«178898_j4002909520310_1_alg».proof.Proof.RefReadP
import proofs.«178898_j4002909520310_1_alg».proof.Proof.KerArray
import proofs.«178898_j4002909520310_1_alg».proof.Proof.KerHost
import proofs.«178898_j4002909520310_1_alg».proof.Proof.RefRow
import proofs.«178898_j4002909520310_1_alg».proof.Proof.MoeGlue
import Idealize.ShloMosaic.Adequacy
import Idealize.ShloMosaic.Init

noncomputable section

namespace Cert.Proof

open Idealize.ShloMosaic Idealize.ShloMosaic.TcCoe Idealize.SL.Sem Cert.MoeRow

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- The mixture of the arrays the kernel's region finds is the mixture of the program's arguments, with the graph
    expert's array the reference's stage of the same arguments, and the bias rows read back as the bias vectors. -/
theorem kernelOut_eq (m : (ℓ : Loc Cert.KernelIdeal.nD Cert.KernelIdeal.τ Cert.KernelIdeal.sig) → Buf (Elt Ideal) ℓ) (c : Dev Cert.KernelIdeal.nD) :
    Cert.KernelIdeal.ArrayValue.kernelOut m c
      = moeOut (m ((c.tc : Thread Cert.KernelIdeal.nD Cert.KernelIdeal.τ).loc Cert.KernelIdeal.main_arg0))
          (Cert.ReferenceIdeal.ReadP.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
          (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  unfold Cert.KernelIdeal.ArrayValue.kernelOut
  exact moeOut_congr (Cert.KernelIdeal.Gen.V_main_arg0 m c) (Cert.KernelIdeal.HostValue.graph_eq m c) (Cert.KernelIdeal.Gen.V_main_arg6 m c)
    ((congrArg rowVec (Cert.KernelIdeal.HostValue.bias_v81 m c)).trans (rowVec_shapeCast _ _))
    (Cert.KernelIdeal.Gen.V_main_arg8 m c)
    ((congrArg rowVec (Cert.KernelIdeal.HostValue.bias_v82 m c)).trans (rowVec_shapeCast _ _))
    (Cert.KernelIdeal.Gen.V_main_arg10 m c)
    ((congrArg rowVec (Cert.KernelIdeal.HostValue.bias_v83 m c)).trans (rowVec_shapeCast _ _))
    (Cert.KernelIdeal.Gen.V_main_arg12 m c)
    ((congrArg rowVec (Cert.KernelIdeal.HostValue.bias_v84 m c)).trans (rowVec_shapeCast _ _))

/-- From memories that agree on the arguments, the idealized kernel and the idealized reference end with the same
    result array: the mixture of the arguments. -/
theorem algebraic : Cert.algebraic_KernelIdeal_ReferenceIdeal := by
  intro m ρ m' ρ' _ hagree
  refine ⟨fun c => Cert.KernelIdeal.ArrayValue.kernelOut m c, ?_, ?_⟩
  · exact (θ_run Cert.KernelIdeal.defs _ _).mono
      (fun r h c => ⟨(h c).1.trans (Cert.KernelIdeal.ArrayValue.final m c), (h c).2⟩) (Cert.KernelIdeal.ValueP.run_blocks m ρ)
  · refine (θ_run Cert.ReferenceIdeal.defs _ _).mono (fun r h c => ⟨(h c).1.trans ?_, (h c).2⟩) (Cert.ReferenceIdeal.RunP.run (F := Ideal) m' ρ')
    rw [Cert.ReferenceIdeal.ReadP.val_main_v117_eq, Cert.ReferenceIdeal.RowValue.result_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    exact (kernelOut_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
